-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x256 : Shape := ⟨2, ![1024, 256]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S8x4096x1024 .f32) (main_arg1 : FVec F S1024x256 .f32) (main_arg2 : FVec F S1024x256 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  main_v13
-- ==== Kernel.lean ====
abbrev S8x4096x1024 : Shape := ⟨3, ![8, 4096, 1024]⟩
abbrev S1024x256 : Shape := ⟨2, ![1024, 256]⟩
abbrev S8x256x1024 : Shape := ⟨3, ![8, 256, 1024]⟩
abbrev S8x4096x256 : Shape := ⟨3, ![8, 4096, 256]⟩
abbrev S1x1024x1024 : Shape := ⟨3, ![1, 1024, 1024]⟩
abbrev S1x256x1024 : Shape := ⟨3, ![1, 256, 1024]⟩
abbrev S1x1024x256 : Shape := ⟨3, ![1, 1024, 256]⟩
abbrev S256x1024 : Shape := ⟨2, ![256, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S1024x256, .f32⟩
  | .hbm, ⟨2, _⟩ => ⟨S1024x256, .f32⟩
  | .hbm, ⟨3, _⟩ => ⟨S8x256x1024, .f32⟩
  | .hbm, ⟨4, _⟩ => ⟨S8x4096x256, .bf16⟩
  | .hbm, ⟨5, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x256, .f32⟩
  | .local _ .vmem, ⟨3, _⟩ => ⟨S1024x256, .f32⟩
  | .local _ .vmem, ⟨4, _⟩ => ⟨S1x256x1024, .f32⟩
  | .local _ .vmem, ⟨5, _⟩ => ⟨S1x256x1024, .f32⟩
  | .local _ .vmem, ⟨6, _⟩ => ⟨S1x1024x256, .bf16⟩
  | .local _ .vmem, ⟨7, _⟩ => ⟨S1x1024x256, .bf16⟩
  | .local _ .vmem, ⟨8, _⟩ => ⟨S256x1024, .f32⟩
  | .local _ .vmem, ⟨9, _⟩ => ⟨S1x1024x256, .bf16⟩
  | .local _ .vmem, ⟨10, _⟩ => ⟨S1x1024x256, .bf16⟩
  | .local _ .vmem, ⟨11, _⟩ => ⟨S1x256x1024, .f32⟩
  | .local _ .vmem, ⟨12, _⟩ => ⟨S1x256x1024, .f32⟩
  | .local _ .vmem, ⟨13, _⟩ => ⟨S1x1024x1024, .f32⟩
  | .local _ .vmem, ⟨14, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_16 : BitVec 32 := 0#32
  let v27 : BitVec 1 := Scalar.cmpi .ne v26 c0_i32_16
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  reduces_S1024x256_S1024 : S1024x256.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S1024x1024_S1024x256_S1024x256_1_0_0_1_n_n_wf : DotDims.WF S1024x1024 S1024x256 S1024x256 [1] [0] [0] [1] [] []
  dot_S1024x256_S1024x1024_S256x1024_0_0_1_1_n_n_wf : DotDims.WF S1024x256 S1024x1024 S256x1024 [0] [0] [1] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x256x1024.size a
  hwx0_3 : ∀ i : grid0.Coords, EltTy.bits .f32 = 32 ∨ (Rect.block (s := S8x256x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S8x4096x256.size a
  hwx0_4 : ∀ i : grid0.Coords, EltTy.bits .bf16 = 32 ∨ (Rect.block (s := S8x4096x256) S1x1024x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x4096x256.size a
  hwx1_0 : ∀ i : grid1.Coords, EltTy.bits .bf16 = 32 ∨ (Rect.block (s := S8x4096x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S8x256x1024.size a
  hwx1_1 : ∀ i : grid1.Coords, EltTy.bits .f32 = 32 ∨ (Rect.block (s := S8x256x1024) S1x256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x4096x1024.size a
  hwx1_2 : ∀ i : grid1.Coords, EltTy.bits .f32 = 32 ∨ (Rect.block (s := S8x4096x1024) S1x1024x1024.size (cc1_transform_2 i) (hinb1_2 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S1024x1024_S256x1024_0_0_1_1_n_n : DotDims S1024x256 S1024x1024 S256x1024 where
  lhsContracting := [0]
  rhsContracting := [0]
  lhsNonContracting := [1]
  rhsNonContracting := [1]
  lhsBatch := []
  rhsBatch := []
  wf := dot_S1024x256_S1024x1024_S256x1024_0_0_1_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

abbrev win1_0 : Pipeline.Window sig grid1 :=
  Pipeline.Window.ofSpec (Memref.whole main_v0_1) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S1024x256 : Shape := ⟨2, ![1024, 256]⟩
abbrev S8x4096x256 : Shape := ⟨3, ![8, 4096, 256]⟩
abbrev S8x256x1024 : Shape := ⟨3, ![8, 256, 1024]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x256, .f32⟩
  | .hbm, ⟨2, _⟩ => ⟨S1024x256, .f32⟩
  | .hbm, ⟨3, _⟩ => ⟨S8x4096x256, .f32⟩
  | .hbm, ⟨4, _⟩ => ⟨S8x4096x256, .f32⟩
  | .hbm, ⟨5, _⟩ => ⟨S8x4096x256, .f32⟩
  | .hbm, ⟨6, _⟩ => ⟨S8x4096x256, .f32⟩
  | .hbm, ⟨7, _⟩ => ⟨S8x256x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  dot_S8x4096x1024_S1024x256_S8x4096x256_2_0_01_1_n_n_wf : DotDims.WF S8x4096x1024 S1024x256 S8x4096x256 [2] [0] [0, 1] [1] [] []
  dot_S8x4096x256_S8x4096x1024_S8x256x1024_1_1_2_2_0_0_wf : DotDims.WF S8x4096x256 S8x4096x1024 S8x256x1024 [1] [1] [2] [2] [0] [0]
  dot_S8x4096x256_S8x256x1024_S8x4096x1024_2_1_1_2_0_0_wf : DotDims.WF S8x4096x256 S8x256x1024 S8x4096x1024 [2] [1] [1] [2] [0] [0]

variable [Facts₀]

def dot_S8x4096x1024_S1024x256_S8x4096x256_2_0_01_1_n_n : DotDims S8x4096x1024 S1024x256 S8x4096x256 where
  lhsContracting := [2]
  rhsContracting := [0]
  lhsNonContracting := [0, 1]
  rhsNonContracting := [1]
  lhsBatch := []
  rhsBatch := []
  wf := dot_S8x4096x1024_S1024x256_S8x4096x256_2_0_01_1_n_n_wf
def dot_S8x4096x256_S8x4096x1024_S8x256x1024_1_1_2_2_0_0 : DotDims S8x4096x256 S8x4096x1024 S8x256x1024 where
  lhsContracting := [1]
  rhsContracting := [1]
  lhsNonContracting := [2]
  rhsNonContracting := [2]
  lhsBatch := [0]
  rhsBatch := [0]
  wf := dot_S8x4096x256_S8x4096x1024_S8x256x1024_1_1_2_2_0_0_wf
def dot_S8x4096x256_S8x256x1024_S8x4096x1024_2_1_1_2_0_0 : DotDims S8x4096x256 S8x256x1024 S8x4096x1024 where
  lhsContracting := [2]
  rhsContracting := [1]
  lhsNonContracting := [1]
  rhsNonContracting := [2]
  lhsBatch := [0]
  rhsBatch := [0]
  wf := dot_S8x4096x256_S8x256x1024_S8x4096x1024_2_1_1_2_0_0_wf

class Facts : Prop extends Facts₀ where

variable [Facts]
-- ==== Proof.BitsRegion0Runs.lean ====
/-
  The first pallas_call of the program (grid 8 × 4: batch row × tile of 1024 sequence positions) as a region entered
  with the TensorCore's buffers at contents `V`: what its windows' blocks are, at which grid points each of the body's
  two branches is taken, where its first result's window is idle, and the staging and scratch memrefs its body is
  called with.  The body zeroes the scratch accumulator at the first tile of a batch row, adds the tile's `k'ᵀ · x`
  at every tile, and copies the accumulator into the first result's block at the fourth.
-/
import proofs.«105023_j38835094290658_2_alg».proof.Proof.Gen.Kernel.Launch
import proofs.«105023_j38835094290658_2_alg».proof.Proof.Gen.Kernel.Skeleton
import proofs.«105023_j38835094290658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (unfetched, the block
    index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branches -/

/-- "This is the first tile of its batch row": the condition under which the body zeroes the accumulator. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last tile of its batch row": the condition under which the body hands the accumulator out. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_4 : ∀ t : Fin cfg0.N, cfg0.idle 4 (grid0.coords t) = false := by decide +kernel
/-- Away from a batch row's last tile the body stores nothing into the first result's block, and the pipeline does not
    write the block back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1x256x1024 .f32 := (Memref.whole cc0_stg3_0 : Memref sig .tc .vmem S1x256x1024 .f32).view
abbrev VO0_4 : View sig .tc .vmem S1x1024x256 .bf16 := (Memref.whole cc0_stg4_0 : Memref sig .tc .vmem S1x1024x256 .bf16).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x256 .bf16 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0_0 : Memref sig .tc .vmem S256x1024 .f32 := Memref.whole cc0_scratch0
abbrev VS0_0 : View sig .tc .vmem S256x1024 .f32 := scM0_0.view

/-- The scoped buffers no window of this call stages, one by one: the accumulator at some contents, the six staging
    buffers of the other call at some contents — beside the generator register at some state. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq (c : Dev nD) :
    (Pipeline.ΦA spec0 c : sProp 𝕄)
      = iprop(iprop((∃ d, owns (c : Thread nD τ) scM0_0 fullShare d) ∗ restOther (F := F) c) ∗ (∃ r, prngReg c r)) := by
  unfold Pipeline.ΦA restOther; rw [scopedRest0_eq]; simp only [scM0_0, owns_whole]; try rfl

end Cert.Kernel.Hand

end
-- ==== Proof.BitsRegion0RunA.lean ====
/-
  The body of the first pallas_call run at the first tile of a batch row (the accumulator zeroed first; nothing handed out): the pieces its stores leave in the
  second result's block and in the scratch accumulator, with the proof that on whole memrefs holding
  the inputs' blocks the body runs to the end leaving exactly those pieces written.
-/
import proofs.«105023_j38835094290658_2_alg».proof.Proof.BitsRegion0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces (last first) the body's stores leave, found by running it, with the run itself. -/
noncomputable def kernelRun0_A (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i)
    (x0 : Vec F S1x1024x1024 .f32) (x1 : Vec F S1024x256 .f32) (x2 : Vec F S1024x256 .f32) :
    Σ' (L3 : List (View.Piece (Elt F) S1x256x1024 .f32)) (L4 : List (View.Piece (Elt F) S1x1024x256 .bf16)), { LS0 : List (View.Piece (Elt F) S256x1024 .f32) //
      ∀ (xi3 : Vec F S1x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kv_qprime_kernel i arg2 harg2 arg3 harg3 arg4 harg4 arg5 harg5 arg6 harg6 arg7 harg7) K } := by
  refine ⟨[], ?_, ?_, fun xi3 E K => ?run⟩
  case run =>
    simp only [cc0__kv_qprime_kernel_eq_skeleton]; unfold cc0__kv_qprime_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.BitsRegion0RunB.lean ====
/-
  The body of the first pallas_call run at a middle tile of a batch row (the accumulator added to; nothing handed out): the pieces its stores leave in the
  second result's block and in the scratch accumulator, with the proof that on whole memrefs holding
  the inputs' blocks the body runs to the end leaving exactly those pieces written.
-/
import proofs.«105023_j38835094290658_2_alg».proof.Proof.BitsRegion0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces (last first) the body's stores leave, found by running it, with the run itself. -/
noncomputable def kernelRun0_B (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i)
    (x0 : Vec F S1x1024x1024 .f32) (x1 : Vec F S1024x256 .f32) (x2 : Vec F S1024x256 .f32) (xs0 : Vec F S256x1024 .f32) :
    Σ' (L3 : List (View.Piece (Elt F) S1x256x1024 .f32)) (L4 : List (View.Piece (Elt F) S1x1024x256 .bf16)), { LS0 : List (View.Piece (Elt F) S256x1024 .f32) //
      ∀ (xi3 : Vec F S1x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kv_qprime_kernel i arg2 harg2 arg3 harg3 arg4 harg4 arg5 harg5 arg6 harg6 arg7 harg7) K } := by
  refine ⟨[], ?_, ?_, fun xi3 E K => ?run⟩
  case run =>
    simp only [cc0__kv_qprime_kernel_eq_skeleton]; unfold cc0__kv_qprime_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.BitsRegion0RunC.lean ====
/-
  The body of the first pallas_call run at the last tile of a batch row (the accumulator added to, then copied into the first result's block): the pieces its stores leave in the
  second result's block, in the first result's block and in the scratch accumulator, with the proof that on whole memrefs holding
  the inputs' blocks the body runs to the end leaving exactly those pieces written.
-/
import proofs.«105023_j38835094290658_2_alg».proof.Proof.BitsRegion0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces (last first) the body's stores leave, found by running it, with the run itself. -/
noncomputable def kernelRun0_C (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) :
    Σ' (L3 : List (View.Piece (Elt F) S1x256x1024 .f32)) (L4 : List (View.Piece (Elt F) S1x1024x256 .bf16)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kv_qprime_kernel i arg2 harg2 arg3 harg3 arg4 harg4 arg5 harg5 arg6 harg6 arg7 harg7) K } := by
  refine ⟨?_, ?_, ?_, fun E K => ?run⟩
  case run =>
    simp only [cc0__kv_qprime_kernel_eq_skeleton]; unfold cc0__kv_qprime_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.BitsRegion0.lean ====
/-
  The first pallas_call as a region: what its two results' blocks and its scratch accumulator hold after the body at
  each grid point, by recursion on the point — the accumulator restarts at the first tile of each batch row and takes the
  previous point's contents at the others —, the region's invariant (the accumulator at the previous point's contents,
  the other scoped buffers and the generator register at anything), the proof data, and the body's obligation at every
  point.
-/
import proofs.«105023_j38835094290658_2_alg».proof.Proof.BitsRegion0RunA
import proofs.«105023_j38835094290658_2_alg».proof.Proof.BitsRegion0RunB
import proofs.«105023_j38835094290658_2_alg».proof.Proof.BitsRegion0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the body leaves in the first result's block at such a point (nothing is stored there: a placeholder nothing consults). -/
def out0_A_3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i)
    (x0 : Vec F S1x1024x1024 .f32) (x1 : Vec F S1024x256 .f32) (x2 : Vec F S1024x256 .f32) : Vec F S1x256x1024 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- Its stores into the second result's block tile the block, -/
theorem cover0_A_4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i)
    (x0 : Vec F S1x1024x1024 .f32) (x1 : Vec F S1024x256 .f32) (x2 : Vec F S1024x256 .f32) (y : S1x1024x256.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1x1024x256.size (by sl_kernel_rfl) y

/-- so the block ends at the pieces read back. -/
def out0_A_4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i)
    (x0 : Vec F S1x1024x1024 .f32) (x1 : Vec F S1024x256 .f32) (x2 : Vec F S1024x256 .f32) : Vec F S1x1024x256 .bf16 :=
  VO0_4.read (Elt F) (VO0_4.writes (Elt F) VO0_4.junk (kernelRun0_A c i arg2 harg2 arg3 harg3 arg4 harg4 arg5 harg5 arg6 harg6 arg7 harg7 hc0 hc1 x0 x1 x2).2.1)

/-- The same for the scratch accumulator. -/
theorem scover0_A_0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i)
    (x0 : Vec F S1x1024x1024 .f32) (x1 : Vec F S1024x256 .f32) (x2 : Vec F S1024x256 .f32) (y : S256x1024.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S256x1024.size (by sl_kernel_rfl) y

def sout0_A_0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i)
    (x0 : Vec F S1x1024x1024 .f32) (x1 : Vec F S1024x256 .f32) (x2 : Vec F S1024x256 .f32) : Vec F S256x1024 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

/-- What the body leaves in the first result's block at such a point (nothing is stored there: a placeholder nothing consults). -/
def out0_B_3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i)
    (x0 : Vec F S1x1024x1024 .f32) (x1 : Vec F S1024x256 .f32) (x2 : Vec F S1024x256 .f32) (xs0 : Vec F S256x1024 .f32) : Vec F S1x256x1024 .f32 :=
  VO0_3.read (Elt F) (VO0_3.writes (Elt F) VO0_3.junk (kernelRun0_B c i arg2 harg2 arg3 harg3 arg4 harg4 arg5 harg5 arg6 harg6 arg7 harg7 hc0 hc1 x0 x1 x2 xs0).1)

/-- Its stores into the second result's block tile the block, -/
theorem cover0_B_4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i)
    (x0 : Vec F S1x1024x1024 .f32) (x1 : Vec F S1024x256 .f32) (x2 : Vec F S1024x256 .f32) (xs0 : Vec F S256x1024 .f32) (y : S1x1024x256.Idx) :
    ∃ pc ∈ (kernelRun0_B c i arg2 harg2 arg3 harg3 arg4 harg4 arg5 harg5 arg6 harg6 arg7 harg7 hc0 hc1 x0 x1 x2 xs0).2.1, y ∈ pc.1.set :=
  View.cover_of_tiledL (kernelRun0_B c i arg2 harg2 arg3 harg3 arg4 harg4 arg5 harg5 arg6 harg6 arg7 harg7 hc0 hc1 x0 x1 x2 xs0).2.1 S1x1024x256.size (by sl_kernel_rfl) y

/-- so the block ends at the pieces read back. -/
def out0_B_4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i)
    (x0 : Vec F S1x1024x1024 .f32) (x1 : Vec F S1024x256 .f32) (x2 : Vec F S1024x256 .f32) (xs0 : Vec F S256x1024 .f32) : Vec F S1x1024x256 .bf16 :=
  VO0_4.read (Elt F) (VO0_4.writes (Elt F) VO0_4.junk (kernelRun0_B c i arg2 harg2 arg3 harg3 arg4 harg4 arg5 harg5 arg6 harg6 arg7 harg7 hc0 hc1 x0 x1 x2 xs0).2.1)

/-- The same for the scratch accumulator. -/
theorem scover0_B_0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i)
    (x0 : Vec F S1x1024x1024 .f32) (x1 : Vec F S1024x256 .f32) (x2 : Vec F S1024x256 .f32) (xs0 : Vec F S256x1024 .f32) (y : S256x1024.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S256x1024.size (by sl_kernel_rfl) y

def sout0_B_0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i)
    (x0 : Vec F S1x1024x1024 .f32) (x1 : Vec F S1024x256 .f32) (x2 : Vec F S1024x256 .f32) (xs0 : Vec F S256x1024 .f32) : Vec F S256x1024 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

/-- What the body leaves in the first result's block at such a point. -/
def out0_C_3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) : Vec F S1x256x1024 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)

theorem cover0_C_3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) (y : S1x256x1024.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S1x256x1024.size (by sl_kernel_rfl) y

/-- Its stores into the second result's block tile the block, -/
theorem cover0_C_4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) (y : S1x1024x256.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S1x1024x256.size (by sl_kernel_rfl) y

/-- so the block ends at the pieces read back. -/
def out0_C_4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) : Vec F S1x1024x256 .bf16 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)

/-- The same for the scratch accumulator. -/
theorem scover0_C_0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) (y : S256x1024.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S256x1024.size (by sl_kernel_rfl) y

def sout0_C_0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) : Vec F S256x1024 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

section Region0

variable (V : (c : Dev nD) → (b : Ref sig .tc) → Buf (Elt F) ((c : Thread nD τ).loc b))

/-! ## What the results' blocks and the accumulator hold after each point -/

/-- After the body at position `n`: (the first result's block, the second result's block, the accumulator). The point's
    case is read off `n mod 4`; a point that is not the first tile of its row runs on the accumulator the point
    before left. -/
def outsAt0 (c : Dev nD) : (n : ℕ) → n < cfg0.N → Vec F S1x256x1024 .f32 × Vec F S1x1024x256 .bf16 × Vec F S256x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the very start every scoped buffer no window stages at anything; afterwards the
    accumulator at what the point before left in it, the other call's staging buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ restOther (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restOther (F := F) c) ∗ (∃ r, prngReg c r)) := by
  cases n with
  | zero => exact absurd rfl hz
  | succ n => rfl

/-! ## The proof data -/

/-- The arrays as the region finds them; after the body at a point each input's buffer at its block, each result's at
    `outsAt0`'s component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' buffers hold their blocks; `t mod 4` says which case the point is in; the
    invariant hands the body the accumulator (at anything at the very first point, else at what the point before left)
    and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [show (dat0 V c).leavesExact 4 t = owns (c : Thread nD τ) (ms0_4 t) fullShare ((dat0 V c).after 4 t) from by
        unfold Dat.leavesExact; rw [liveAt0_4 t], after0_4]
      rw [outsAt0_A V c t h0 h1]
      unfold out0_A_4 sout0_A_0; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover0_A_4 c _ _ _ _ _ _ _ _ _ _ _ _ _ _ _ _ _ _)
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexact H3
        isplitl [H4]; · iexists _; iexact H4
        isplitl [HS0]; · iexists _; iexact HS0
        iintro ⟨H0, H1, H2, H3, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover0_A_4 c _ _ _ _ _ _ _ _ _ _ _ _ _ _ _ _ _ _)
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t], after0_4]
      rw [outsAt0_C V c t h0 h1]
      unfold out0_C_3 out0_C_4 sout0_C_0; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [show (dat0 V c).leavesExact 4 t = owns (c : Thread nD τ) (ms0_4 t) fullShare ((dat0 V c).after 4 t) from by
        unfold Dat.leavesExact; rw [liveAt0_4 t], after0_4]
      rw [outsAt0_B V c t h0 h1]
      unfold out0_B_4 sout0_B_0; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover0_B_4 c _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hrest⟩, Hg⟩
  isplitl [HS0 Hrest]
  · isplitl [HS0]
    · iexists _; iexact HS0
    iexact Hrest
  iexact Hg

end Region0

end Cert.Kernel.Hand

end
-- ==== Proof.BitsRegion1.lean ====
/-
  The program's second call — the one that turns the feature map `q'` and the summary `kv` into the result — as ONE
  region of a program of several regions, stated at a parameter `V`: the contents of the TensorCore's buffers at the
  moment the region is entered.  Everything here is generic in the float instance.

  The call walks a grid of 8 × 4 points, a batch row `b` and a tile `l` of 1024 sequence positions.  It has three
  windows.  A BLOCK of a window at a point is the rectangle of the window's array that the window's index map names
  there, read as an array of the block's own shape:
    * window 0, the feature map `q'` ([8, 4096, 256], 16-bit floats): block [1, 1024, 256] at (b, l, 0), the tile's rows;
    * window 1, the summary `kv` ([8, 256, 1024]): block [1, 256, 1024] at (b, 0, 0), the whole batch row — the same
      block at the four points of a batch row, so the pipeline moves it only at the first of them;
    * window 2, the result ([8, 4096, 1024]): block [1, 1024, 1024] at (b, l, 0), written back at every point.
  The body loads the whole of the two input buffers, computes `(q' · kv) · (1 / (Σ q' + ε))` of them (the payload
  `k1_pay1`), and stores that over the whole of the output buffer.  So after the body at a point the two input buffers
  hold their blocks still, and the output buffer holds the payload of the two input blocks (`out1_2`): a function of
  the region-entry contents and the point alone.  That is the region's proof data (`dat1`), and the body meets the
  pipeline's obligation for it at every point (`body_obligation1`).
-/
import proofs.«105023_j38835094290658_2_alg».proof.Proof.Gen.Kernel.Launch
import proofs.«105023_j38835094290658_2_alg».proof.Proof.Gen.Kernel.Skeleton
import proofs.«105023_j38835094290658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of length 1024: the structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`: the rectangle of the window's array its index map names there, read off the
    array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature map's staging buffer holds the tile's block when the body is called, for ANY proof data whose array
    is `V`'s (`hA`) and whose body leaves the block where it found it (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The summary's staging buffer holds the batch row's block when the body is called, at the first point of a batch
    row (where the pipeline moves it in) and at the three after it (where the block index has not moved, and the
    buffer still holds what the body before left there, which is the same block); for any proof data as above. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole of each staging buffer -/

abbrev r1_0 : Rect S1x1024x256 := Rect.unit (s := S1x1024x256) ![0, 0, 0] S1x1024x256.size inb_S1x1024x256_S1x1024x256_0_0_0
abbrev r1_1 : Rect S1x256x1024 := Rect.unit (s := S1x256x1024) ![0, 0, 0] S1x256x1024.size inb_S1x256x1024_S1x256x1024_0_0_0
abbrev r1_2 : Rect S1x1024x1024 := Rect.unit (s := S1x1024x1024) ![0, 0, 0] S1x1024x1024.size inb_S1x1024x1024_S1x1024x1024_0_0_0

/-! ## What the body leaves in the output window's buffer -/

/-- The result's staging buffer after the body, from the two input blocks: the body's one store, of the payload of the
    two loads, laid over the whole buffer. -/
def out1_2 (x0 : Vec F S1x1024x256 .bf16) (x1 : Vec F S1x256x1024 .f32) : Vec F S1x1024x1024 .f32 :=
  View.canon [⟨r1_2, k1_pay1 (View.ld x0 r1_0) (View.ld x1 r1_1)⟩]

/-- The store's rectangle is the whole buffer, so it covers it. -/
theorem cover1_2 (p0 : Vec F S1x1024x1024 .f32) (y : S1x1024x1024.Idx) :
    ∃ pc ∈ ([⟨r1_2, p0⟩] : List (View.Piece (Elt F) S1x1024x1024 .f32)), y ∈ pc.1.set :=
  View.cover_of_tiled [⟨r1_2, p0⟩] S1x1024x1024.size (by rfl) y

/-! ## The body's triple -/

set_option maxHeartbeats 1000000 in
/-- The kernel body on whole staging memrefs — the two inputs' at read contents `x0`, `x1`, the output's at anything —
    runs to the continuation holding the inputs' as they were and the output's at `out1_2 x0 x1`.  (The body also
    loads the output buffer before storing into it; the value is not used, and any contents will do.) -/
theorem sound_kernel1 (c : Dev nD) (E : Set ℕ) (i : grid1.Coords)
    (arg2 : Memref sig .tc .vmem S1x1024x256 .bf16) (harg2 : arg2.IsWhole)
    (arg3 : Memref sig .tc .vmem S1x256x1024 .f32) (harg3 : arg3.IsWhole)
    (arg4 : Memref sig .tc .vmem S1x1024x1024 .f32) (harg4 : arg4.IsWhole)
    (x0 : Vec F S1x1024x256 .bf16) (x1 : Vec F S1x256x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The region's proof data on core `c`: the arrays as the region finds them (`V`); after the body at point `t`
    each input's buffer at its block and the output's at `out1_2` of the two input blocks; the invariant "the scoped
    rest and the generator register, untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's staging buffer holds its block when the body is called, moved in at that point or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debts, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole program as two regions in sequence: the TensorCore's buffer contents at launch, after the first
  pallas_call (its two results' arrays at what its write-backs leave, every other buffer untouched) and after the
  second (its result's array likewise); each pallas_call as a segment entered from "every unscoped buffer at the
  boundary's contents" and left at the next boundary's; and the run of @main: it terminates without a fault, the three
  argument arrays end as launched, and the result array ends at what the second call's write-backs leave.
-/
import proofs.«105023_j38835094290658_2_alg».proof.Proof.BitsRegion0
import proofs.«105023_j38835094290658_2_alg».proof.Proof.BitsRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first pallas_call: its arrays at what the pipeline leaves, every other buffer as entered. -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- After the second pallas_call. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched: the second call does not touch them, the first only reads them -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W0 m ρ c (Proc.devRef .tc main_arg0) := (W2_arr m ρ c 0).trans (((dat0 (V0 m ρ) c).arrAt_in 0 rfl _).trans (A_eq0 (V0 m ρ) c 0))
    _ = m ((c : Thread nD τ).loc main_arg0) := rfl
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 1).trans (((dat0 (V0 m ρ) c).arrAt_in 1 rfl _).trans (A_eq0 (V0 m ρ) c 1))
    _ = m ((c : Thread nD τ).loc main_arg2) := rfl
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 2).trans (((dat0 (V0 m ρ) c).arrAt_in 2 rfl _).trans (A_eq0 (V0 m ρ) c 2))
    _ = m ((c : Thread nD τ).loc main_arg1) := rfl
/-- The result array ends at what the second call's write-backs leave. -/
theorem W4_main_v1 (c : Dev nD) : W4 m ρ c (Proc.devRef .tc main_v1) = (dat1 (V2 m ρ) c).arrAt 2 cfg1.N := W4_arr m ρ c 2

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

/-- After the first call's last point its invariant gives back the scoped buffers no window stages and the generator
    register. -/
theorem hout0' (c : Dev nD) : (dat0 (V0 m ρ) c).Φ (Fin.last cfg0.N) ⊢ (iprop(Pipeline.scopedRest spec0 c ∗ ∃ r, prngReg c r) : sProp 𝕄) := by
  have h := hout0 (V0 m ρ) c
  unfold Pipeline.ΦA at h
  exact h

set_option backward.isDefEq.respectTransparency.types false in
/-- The first pallas_call: entered from every unscoped buffer at the launch contents, left at `W2`. Its arrays are split
    out of the unscoped buffers and put back at the exit contents; the generator register and the scoped buffers no
    window stages go into the region's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    show (dat0 (V0 m ρ) c).Φ (Fin.last cfg0.N) ⊢ _
    have hh := hout0' m ρ c
    iintro H
    ihave H' := hh $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from every unscoped buffer at `W2`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates without a fault, and the
    final memory holds every unscoped buffer at the last boundary's contents — so the result array at what the second
    call's write-backs leave and each argument array as launched. -/
theorem run_all : θ_run defs (onTc (τ := τ) (main (F := F))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v1 (by decide))).trans (W4_main_v1 m ρ c),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c)⟩)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_all m ρ)

end Cert.Kernel.Hand

end
-- ==== Proof.IdealRegion0Runs.lean ====
/-
  The first pallas_call of the program (grid 8 × 4: batch row × tile of 1024 sequence positions) as a region entered
  with the TensorCore's buffers at contents `V`: what its windows' blocks are, at which grid points each of the body's
  two branches is taken, where its first result's window is idle, and the staging and scratch memrefs its body is
  called with.  The body zeroes the scratch accumulator at the first tile of a batch row, adds the tile's `k'ᵀ · x`
  at every tile, and copies the accumulator into the first result's block at the fourth.
-/
import proofs.«105023_j38835094290658_2_alg».proof.Proof.Gen.KernelIdeal.Launch
import proofs.«105023_j38835094290658_2_alg».proof.Proof.Gen.KernelIdeal.Skeleton
import proofs.«105023_j38835094290658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (unfetched, the block
    index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branches -/

/-- "This is the first tile of its batch row": the condition under which the body zeroes the accumulator. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last tile of its batch row": the condition under which the body hands the accumulator out. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_4 : ∀ t : Fin cfg0.N, cfg0.idle 4 (grid0.coords t) = false := by decide +kernel
/-- Away from a batch row's last tile the body stores nothing into the first result's block, and the pipeline does not
    write the block back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1x256x1024 .f32 := (Memref.whole cc0_stg3_0 : Memref sig .tc .vmem S1x256x1024 .f32).view
abbrev VO0_4 : View sig .tc .vmem S1x1024x256 .bf16 := (Memref.whole cc0_stg4_0 : Memref sig .tc .vmem S1x1024x256 .bf16).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x256 .bf16 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0_0 : Memref sig .tc .vmem S256x1024 .f32 := Memref.whole cc0_scratch0
abbrev VS0_0 : View sig .tc .vmem S256x1024 .f32 := scM0_0.view

/-- The scoped buffers no window of this call stages, one by one: the accumulator at some contents, the six staging
    buffers of the other call at some contents — beside the generator register at some state. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq (c : Dev nD) :
    (Pipeline.ΦA spec0 c : sProp 𝕄)
      = iprop(iprop((∃ d, owns (c : Thread nD τ) scM0_0 fullShare d) ∗ restOther (F := F) c) ∗ (∃ r, prngReg c r)) := by
  unfold Pipeline.ΦA restOther; rw [scopedRest0_eq]; simp only [scM0_0, owns_whole]; try rfl

end Cert.KernelIdeal.Hand

end
-- ==== Proof.IdealRegion0RunA.lean ====
/-
  The body of the first pallas_call run at the first tile of a batch row (the accumulator zeroed first; nothing handed out): the pieces its stores leave in the
  second result's block and in the scratch accumulator, with the proof that on whole memrefs holding
  the inputs' blocks the body runs to the end leaving exactly those pieces written.
-/
import proofs.«105023_j38835094290658_2_alg».proof.Proof.IdealRegion0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces (last first) the body's stores leave, found by running it, with the run itself. -/
noncomputable def kernelRun0_A (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i)
    (x0 : Vec F S1x1024x1024 .f32) (x1 : Vec F S1024x256 .f32) (x2 : Vec F S1024x256 .f32) :
    Σ' (L3 : List (View.Piece (Elt F) S1x256x1024 .f32)) (L4 : List (View.Piece (Elt F) S1x1024x256 .bf16)), { LS0 : List (View.Piece (Elt F) S256x1024 .f32) //
      ∀ (xi3 : Vec F S1x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kv_qprime_kernel i arg2 harg2 arg3 harg3 arg4 harg4 arg5 harg5 arg6 harg6 arg7 harg7) K } := by
  refine ⟨[], ?_, ?_, fun xi3 E K => ?run⟩
  case run =>
    simp only [cc0__kv_qprime_kernel_eq_skeleton]; unfold cc0__kv_qprime_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.IdealRegion0RunB.lean ====
/-
  The body of the first pallas_call run at a middle tile of a batch row (the accumulator added to; nothing handed out): the pieces its stores leave in the
  second result's block and in the scratch accumulator, with the proof that on whole memrefs holding
  the inputs' blocks the body runs to the end leaving exactly those pieces written.
-/
import proofs.«105023_j38835094290658_2_alg».proof.Proof.IdealRegion0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces (last first) the body's stores leave, found by running it, with the run itself. -/
noncomputable def kernelRun0_B (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i)
    (x0 : Vec F S1x1024x1024 .f32) (x1 : Vec F S1024x256 .f32) (x2 : Vec F S1024x256 .f32) (xs0 : Vec F S256x1024 .f32) :
    Σ' (L3 : List (View.Piece (Elt F) S1x256x1024 .f32)) (L4 : List (View.Piece (Elt F) S1x1024x256 .bf16)), { LS0 : List (View.Piece (Elt F) S256x1024 .f32) //
      ∀ (xi3 : Vec F S1x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kv_qprime_kernel i arg2 harg2 arg3 harg3 arg4 harg4 arg5 harg5 arg6 harg6 arg7 harg7) K } := by
  refine ⟨[], ?_, ?_, fun xi3 E K => ?run⟩
  case run =>
    simp only [cc0__kv_qprime_kernel_eq_skeleton]; unfold cc0__kv_qprime_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.IdealRegion0RunC.lean ====
/-
  The body of the first pallas_call run at the last tile of a batch row (the accumulator added to, then copied into the first result's block): the pieces its stores leave in the
  second result's block, in the first result's block and in the scratch accumulator, with the proof that on whole memrefs holding
  the inputs' blocks the body runs to the end leaving exactly those pieces written.
-/
import proofs.«105023_j38835094290658_2_alg».proof.Proof.IdealRegion0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces (last first) the body's stores leave, found by running it, with the run itself. -/
noncomputable def kernelRun0_C (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) :
    Σ' (L3 : List (View.Piece (Elt F) S1x256x1024 .f32)) (L4 : List (View.Piece (Elt F) S1x1024x256 .bf16)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kv_qprime_kernel i arg2 harg2 arg3 harg3 arg4 harg4 arg5 harg5 arg6 harg6 arg7 harg7) K } := by
  refine ⟨?_, ?_, ?_, fun E K => ?run⟩
  case run =>
    simp only [cc0__kv_qprime_kernel_eq_skeleton]; unfold cc0__kv_qprime_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.IdealRegion0.lean ====
/-
  The first pallas_call as a region: what its two results' blocks and its scratch accumulator hold after the body at
  each grid point, by recursion on the point — the accumulator restarts at the first tile of each batch row and takes the
  previous point's contents at the others —, the region's invariant (the accumulator at the previous point's contents,
  the other scoped buffers and the generator register at anything), the proof data, and the body's obligation at every
  point.
-/
import proofs.«105023_j38835094290658_2_alg».proof.Proof.IdealRegion0RunA
import proofs.«105023_j38835094290658_2_alg».proof.Proof.IdealRegion0RunB
import proofs.«105023_j38835094290658_2_alg».proof.Proof.IdealRegion0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the body leaves in the first result's block at such a point (nothing is stored there: a placeholder nothing consults). -/
def out0_A_3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i)
    (x0 : Vec F S1x1024x1024 .f32) (x1 : Vec F S1024x256 .f32) (x2 : Vec F S1024x256 .f32) : Vec F S1x256x1024 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- Its stores into the second result's block tile the block, -/
theorem cover0_A_4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i)
    (x0 : Vec F S1x1024x1024 .f32) (x1 : Vec F S1024x256 .f32) (x2 : Vec F S1024x256 .f32) (y : S1x1024x256.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1x1024x256.size (by sl_kernel_rfl) y

/-- so the block ends at the pieces read back. -/
def out0_A_4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i)
    (x0 : Vec F S1x1024x1024 .f32) (x1 : Vec F S1024x256 .f32) (x2 : Vec F S1024x256 .f32) : Vec F S1x1024x256 .bf16 :=
  VO0_4.read (Elt F) (VO0_4.writes (Elt F) VO0_4.junk (kernelRun0_A c i arg2 harg2 arg3 harg3 arg4 harg4 arg5 harg5 arg6 harg6 arg7 harg7 hc0 hc1 x0 x1 x2).2.1)

/-- The same for the scratch accumulator. -/
theorem scover0_A_0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i)
    (x0 : Vec F S1x1024x1024 .f32) (x1 : Vec F S1024x256 .f32) (x2 : Vec F S1024x256 .f32) (y : S256x1024.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S256x1024.size (by sl_kernel_rfl) y

def sout0_A_0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i)
    (x0 : Vec F S1x1024x1024 .f32) (x1 : Vec F S1024x256 .f32) (x2 : Vec F S1024x256 .f32) : Vec F S256x1024 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

/-- What the body leaves in the first result's block at such a point (nothing is stored there: a placeholder nothing consults). -/
def out0_B_3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i)
    (x0 : Vec F S1x1024x1024 .f32) (x1 : Vec F S1024x256 .f32) (x2 : Vec F S1024x256 .f32) (xs0 : Vec F S256x1024 .f32) : Vec F S1x256x1024 .f32 :=
  VO0_3.read (Elt F) (VO0_3.writes (Elt F) VO0_3.junk (kernelRun0_B c i arg2 harg2 arg3 harg3 arg4 harg4 arg5 harg5 arg6 harg6 arg7 harg7 hc0 hc1 x0 x1 x2 xs0).1)

/-- Its stores into the second result's block tile the block, -/
theorem cover0_B_4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i)
    (x0 : Vec F S1x1024x1024 .f32) (x1 : Vec F S1024x256 .f32) (x2 : Vec F S1024x256 .f32) (xs0 : Vec F S256x1024 .f32) (y : S1x1024x256.Idx) :
    ∃ pc ∈ (kernelRun0_B c i arg2 harg2 arg3 harg3 arg4 harg4 arg5 harg5 arg6 harg6 arg7 harg7 hc0 hc1 x0 x1 x2 xs0).2.1, y ∈ pc.1.set :=
  View.cover_of_tiledL (kernelRun0_B c i arg2 harg2 arg3 harg3 arg4 harg4 arg5 harg5 arg6 harg6 arg7 harg7 hc0 hc1 x0 x1 x2 xs0).2.1 S1x1024x256.size (by sl_kernel_rfl) y

/-- so the block ends at the pieces read back. -/
def out0_B_4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i)
    (x0 : Vec F S1x1024x1024 .f32) (x1 : Vec F S1024x256 .f32) (x2 : Vec F S1024x256 .f32) (xs0 : Vec F S256x1024 .f32) : Vec F S1x1024x256 .bf16 :=
  VO0_4.read (Elt F) (VO0_4.writes (Elt F) VO0_4.junk (kernelRun0_B c i arg2 harg2 arg3 harg3 arg4 harg4 arg5 harg5 arg6 harg6 arg7 harg7 hc0 hc1 x0 x1 x2 xs0).2.1)

/-- The same for the scratch accumulator. -/
theorem scover0_B_0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i)
    (x0 : Vec F S1x1024x1024 .f32) (x1 : Vec F S1024x256 .f32) (x2 : Vec F S1024x256 .f32) (xs0 : Vec F S256x1024 .f32) (y : S256x1024.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S256x1024.size (by sl_kernel_rfl) y

def sout0_B_0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i)
    (x0 : Vec F S1x1024x1024 .f32) (x1 : Vec F S1024x256 .f32) (x2 : Vec F S1024x256 .f32) (xs0 : Vec F S256x1024 .f32) : Vec F S256x1024 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

/-- What the body leaves in the first result's block at such a point. -/
def out0_C_3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) : Vec F S1x256x1024 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)

theorem cover0_C_3 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) (y : S1x256x1024.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S1x256x1024.size (by sl_kernel_rfl) y

/-- Its stores into the second result's block tile the block, -/
theorem cover0_C_4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) (y : S1x1024x256.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S1x1024x256.size (by sl_kernel_rfl) y

/-- so the block ends at the pieces read back. -/
def out0_C_4 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) : Vec F S1x1024x256 .bf16 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)

/-- The same for the scratch accumulator. -/
theorem scover0_C_0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) (y : S256x1024.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S256x1024.size (by sl_kernel_rfl) y

def sout0_C_0 (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i)
    (x0 : Vec F S1x1024x1024 .f32) (x1 : Vec F S1024x256 .f32) (x2 : Vec F S1024x256 .f32) (xs0 : Vec F S256x1024 .f32) : Vec F S256x1024 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

section Region0

variable (V : (c : Dev nD) → (b : Ref sig .tc) → Buf (Elt F) ((c : Thread nD τ).loc b))

/-! ## What the results' blocks and the accumulator hold after each point -/

/-- After the body at position `n`: (the first result's block, the second result's block, the accumulator). The point's
    case is read off `n mod 4`; a point that is not the first tile of its row runs on the accumulator the point
    before left. -/
def outsAt0 (c : Dev nD) : (n : ℕ) → n < cfg0.N → Vec F S1x256x1024 .f32 × Vec F S1x1024x256 .bf16 × Vec F S256x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the very start every scoped buffer no window stages at anything; afterwards the
    accumulator at what the point before left in it, the other call's staging buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ restOther (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restOther (F := F) c) ∗ (∃ r, prngReg c r)) := by
  cases n with
  | zero => exact absurd rfl hz
  | succ n => rfl

/-! ## The proof data -/

/-- The arrays as the region finds them; after the body at a point each input's buffer at its block, each result's at
    `outsAt0`'s component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' buffers hold their blocks; `t mod 4` says which case the point is in; the
    invariant hands the body the accumulator (at anything at the very first point, else at what the point before left)
    and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [show (dat0 V c).leavesExact 4 t = owns (c : Thread nD τ) (ms0_4 t) fullShare ((dat0 V c).after 4 t) from by
        unfold Dat.leavesExact; rw [liveAt0_4 t], after0_4]
      rw [outsAt0_A V c t h0 h1]
      unfold out0_A_4 sout0_A_0; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover0_A_4 c _ _ _ _ _ _ _ _ _ _ _ _ _ _ _ _ _ _)
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexact H3
        isplitl [H4]; · iexists _; iexact H4
        isplitl [HS0]; · iexists _; iexact HS0
        iintro ⟨H0, H1, H2, H3, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover0_A_4 c _ _ _ _ _ _ _ _ _ _ _ _ _ _ _ _ _ _)
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t], after0_4]
      rw [outsAt0_C V c t h0 h1]
      unfold out0_C_3 out0_C_4 sout0_C_0; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [show (dat0 V c).leavesExact 4 t = owns (c : Thread nD τ) (ms0_4 t) fullShare ((dat0 V c).after 4 t) from by
        unfold Dat.leavesExact; rw [liveAt0_4 t], after0_4]
      rw [outsAt0_B V c t h0 h1]
      unfold out0_B_4 sout0_B_0; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover0_B_4 c _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hrest⟩, Hg⟩
  isplitl [HS0 Hrest]
  · isplitl [HS0]
    · iexists _; iexact HS0
    iexact Hrest
  iexact Hg

end Region0

end Cert.KernelIdeal.Hand

end
-- ==== Proof.IdealRegion1.lean ====
/-
  The program's second call — the one that turns the feature map `q'` and the summary `kv` into the result — as ONE
  region of a program of several regions, stated at a parameter `V`: the contents of the TensorCore's buffers at the
  moment the region is entered.  Everything here is generic in the float instance.

  The call walks a grid of 8 × 4 points, a batch row `b` and a tile `l` of 1024 sequence positions.  It has three
  windows.  A BLOCK of a window at a point is the rectangle of the window's array that the window's index map names
  there, read as an array of the block's own shape:
    * window 0, the feature map `q'` ([8, 4096, 256], 16-bit floats): block [1, 1024, 256] at (b, l, 0), the tile's rows;
    * window 1, the summary `kv` ([8, 256, 1024]): block [1, 256, 1024] at (b, 0, 0), the whole batch row — the same
      block at the four points of a batch row, so the pipeline moves it only at the first of them;
    * window 2, the result ([8, 4096, 1024]): block [1, 1024, 1024] at (b, l, 0), written back at every point.
  The body loads the whole of the two input buffers, computes `(q' · kv) · (1 / (Σ q' + ε))` of them (the payload
  `k1_pay1`), and stores that over the whole of the output buffer.  So after the body at a point the two input buffers
  hold their blocks still, and the output buffer holds the payload of the two input blocks (`out1_2`): a function of
  the region-entry contents and the point alone.  That is the region's proof data (`dat1`), and the body meets the
  pipeline's obligation for it at every point (`body_obligation1`).
-/
import proofs.«105023_j38835094290658_2_alg».proof.Proof.Gen.KernelIdeal.Launch
import proofs.«105023_j38835094290658_2_alg».proof.Proof.Gen.KernelIdeal.Skeleton
import proofs.«105023_j38835094290658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of length 1024: the structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The windows' blocks -/

/-- Window `w`'s block at point `t`: the rectangle of the window's array its index map names there, read off the
    array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature map's staging buffer holds the tile's block when the body is called, for ANY proof data whose array
    is `V`'s (`hA`) and whose body leaves the block where it found it (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The summary's staging buffer holds the batch row's block when the body is called, at the first point of a batch
    row (where the pipeline moves it in) and at the three after it (where the block index has not moved, and the
    buffer still holds what the body before left there, which is the same block); for any proof data as above. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole of each staging buffer -/

abbrev r1_0 : Rect S1x1024x256 := Rect.unit (s := S1x1024x256) ![0, 0, 0] S1x1024x256.size inb_S1x1024x256_S1x1024x256_0_0_0
abbrev r1_1 : Rect S1x256x1024 := Rect.unit (s := S1x256x1024) ![0, 0, 0] S1x256x1024.size inb_S1x256x1024_S1x256x1024_0_0_0
abbrev r1_2 : Rect S1x1024x1024 := Rect.unit (s := S1x1024x1024) ![0, 0, 0] S1x1024x1024.size inb_S1x1024x1024_S1x1024x1024_0_0_0

/-! ## What the body leaves in the output window's buffer -/

/-- The result's staging buffer after the body, from the two input blocks: the body's one store, of the payload of the
    two loads, laid over the whole buffer. -/
def out1_2 (x0 : Vec F S1x1024x256 .bf16) (x1 : Vec F S1x256x1024 .f32) : Vec F S1x1024x1024 .f32 :=
  View.canon [⟨r1_2, k1_pay1 (View.ld x0 r1_0) (View.ld x1 r1_1)⟩]

/-- The store's rectangle is the whole buffer, so it covers it. -/
theorem cover1_2 (p0 : Vec F S1x1024x1024 .f32) (y : S1x1024x1024.Idx) :
    ∃ pc ∈ ([⟨r1_2, p0⟩] : List (View.Piece (Elt F) S1x1024x1024 .f32)), y ∈ pc.1.set :=
  View.cover_of_tiled [⟨r1_2, p0⟩] S1x1024x1024.size (by rfl) y

/-! ## The body's triple -/

set_option maxHeartbeats 1000000 in
/-- The kernel body on whole staging memrefs — the two inputs' at read contents `x0`, `x1`, the output's at anything —
    runs to the continuation holding the inputs' as they were and the output's at `out1_2 x0 x1`.  (The body also
    loads the output buffer before storing into it; the value is not used, and any contents will do.) -/
theorem sound_kernel1 (c : Dev nD) (E : Set ℕ) (i : grid1.Coords)
    (arg2 : Memref sig .tc .vmem S1x1024x256 .bf16) (harg2 : arg2.IsWhole)
    (arg3 : Memref sig .tc .vmem S1x256x1024 .f32) (harg3 : arg3.IsWhole)
    (arg4 : Memref sig .tc .vmem S1x1024x1024 .f32) (harg4 : arg4.IsWhole)
    (x0 : Vec F S1x1024x256 .bf16) (x1 : Vec F S1x256x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The region's proof data on core `c`: the arrays as the region finds them (`V`); after the body at point `t`
    each input's buffer at its block and the output's at `out1_2` of the two input blocks; the invariant "the scoped
    rest and the generator register, untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's staging buffer holds its block when the body is called, moved in at that point or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debts, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole program as two regions in sequence: the TensorCore's buffer contents at launch, after the first
  pallas_call (its two results' arrays at what its write-backs leave, every other buffer untouched) and after the
  second (its result's array likewise); each pallas_call as a segment entered from "every unscoped buffer at the
  boundary's contents" and left at the next boundary's; and the run of @main: it terminates without a fault, the three
  argument arrays end as launched, and the result array ends at what the second call's write-backs leave.
-/
import proofs.«105023_j38835094290658_2_alg».proof.Proof.IdealRegion0
import proofs.«105023_j38835094290658_2_alg».proof.Proof.IdealRegion1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first pallas_call: its arrays at what the pipeline leaves, every other buffer as entered. -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- After the second pallas_call. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched: the second call does not touch them, the first only reads them -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W0 m ρ c (Proc.devRef .tc main_arg0) := (W2_arr m ρ c 0).trans (((dat0 (V0 m ρ) c).arrAt_in 0 rfl _).trans (A_eq0 (V0 m ρ) c 0))
    _ = m ((c : Thread nD τ).loc main_arg0) := rfl
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 1).trans (((dat0 (V0 m ρ) c).arrAt_in 1 rfl _).trans (A_eq0 (V0 m ρ) c 1))
    _ = m ((c : Thread nD τ).loc main_arg2) := rfl
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 2).trans (((dat0 (V0 m ρ) c).arrAt_in 2 rfl _).trans (A_eq0 (V0 m ρ) c 2))
    _ = m ((c : Thread nD τ).loc main_arg1) := rfl
/-- The result array ends at what the second call's write-backs leave. -/
theorem W4_main_v1 (c : Dev nD) : W4 m ρ c (Proc.devRef .tc main_v1) = (dat1 (V2 m ρ) c).arrAt 2 cfg1.N := W4_arr m ρ c 2

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

/-- After the first call's last point its invariant gives back the scoped buffers no window stages and the generator
    register. -/
theorem hout0' (c : Dev nD) : (dat0 (V0 m ρ) c).Φ (Fin.last cfg0.N) ⊢ (iprop(Pipeline.scopedRest spec0 c ∗ ∃ r, prngReg c r) : sProp 𝕄) := by
  have h := hout0 (V0 m ρ) c
  unfold Pipeline.ΦA at h
  exact h

set_option backward.isDefEq.respectTransparency.types false in
/-- The first pallas_call: entered from every unscoped buffer at the launch contents, left at `W2`. Its arrays are split
    out of the unscoped buffers and put back at the exit contents; the generator register and the scoped buffers no
    window stages go into the region's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    show (dat0 (V0 m ρ) c).Φ (Fin.last cfg0.N) ⊢ _
    have hh := hout0' m ρ c
    iintro H
    ihave H' := hh $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from every unscoped buffer at `W2`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates without a fault, and the
    final memory holds every unscoped buffer at the last boundary's contents — so the result array at what the second
    call's write-backs leave and each argument array as launched. -/
theorem run_all : θ_run defs (onTc (τ := τ) (main (F := F))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v1 (by decide))).trans (W4_main_v1 m ρ c),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c)⟩)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_all m ρ)

end Cert.KernelIdeal.Hand

end
-- ==== Proof.Spec.lean ====
/-
  The value the two pallas_calls compute, as whole-array functions of the three argument arrays, written over the
  kernel bodies' payload terms (generic in the float instance).

  The first call walks, per batch row `b`, the four tiles of 1024 sequence positions: at tile `j` it adds to an accumulator
  the product `k'ᵀ · x` of that tile (`k' = exp (x · k_proj)`), starting from zero, and hands the accumulator out after the
  fourth tile (`kvG`); at every tile it also writes `q' = exp (x · q_proj)` of the tile (`qpG`).  The second call reads
  tile `j` of `q'` and the whole summary of the batch row and writes `(q' · kv) · (1 / (Σ q' + ε))` (`outG`).
-/
import proofs.«105023_j38835094290658_2_alg».proof.Proof.Gen.KernelIdeal.Skeleton
import Idealize.ShloMosaic.Lib.ValueIdx

noncomputable section

namespace Cert.KernelIdeal.Spec

open Idealize.ShloMosaic Idealize.ShloMosaic.ValueIdx Cert.KernelIdeal Cert.KernelIdeal.Gen

variable {F : FTy → Type} [FloatOps F]

/-- Sequence position `1024 j + r` of a tile, as a position of the whole sequence. -/
def seqPos (j : Fin 4) (r : Fin 1024) : Fin 4096 := ⟨j.val * 1024 + r.val, by have := j.isLt; have := r.isLt; omega⟩
/-- The tile a sequence position lies in, and its place inside the tile. -/
def tileOf (l : Fin 4096) : Fin 4 := ⟨l.val / 1024, by have := l.isLt; omega⟩
def inTile (l : Fin 4096) : Fin 1024 := ⟨l.val % 1024, Nat.mod_lt _ (by decide)⟩

/-- Tile `j` of batch row `b` of the input, as the [1, 1024, 1024] block the first call's body loads. -/
def tileX (x : Vec F S8x4096x1024 .f32) (b : Fin 8) (j : Fin 4) : Vec F S1x1024x1024 .f32 :=
  fun y => x (ix3 b (seqPos j ⟨(y 1).val, (y 1).isLt⟩) ⟨(y 2).val, (y 2).isLt⟩)
/-- Tile `j` of batch row `b` of the feature map `q'`, as the [1, 1024, 256] block the second call's body loads. -/
def tileQ (qp : Vec F S8x4096x256 .bf16) (b : Fin 8) (j : Fin 4) : Vec F S1x1024x256 .bf16 :=
  fun y => qp (ix3 b (seqPos j ⟨(y 1).val, (y 1).isLt⟩) ⟨(y 2).val, (y 2).isLt⟩)
/-- Batch row `b` of the summary, as the [1, 256, 1024] block the second call's body loads. -/
def rowKV (kv : Vec F S8x256x1024 .f32) (b : Fin 8) : Vec F S1x256x1024 .f32 :=
  fun y => kv (ix3 b ⟨(y 1).val, (y 1).isLt⟩ ⟨(y 2).val, (y 2).isLt⟩)

/-- `q' = exp (x · q_proj)`, tile by tile: what the first call leaves in its second result. -/
def qpG (x : Vec F S8x4096x1024 .f32) (qproj : Vec F S1024x256 .f32) : Vec F S8x4096x256 .bf16 :=
  fun i => k0_pay4 (tileX x ⟨(i 0).val, (i 0).isLt⟩ (tileOf ⟨(i 1).val, (i 1).isLt⟩)) qproj
    (ix3 (0 : Fin 1) (inTile ⟨(i 1).val, (i 1).isLt⟩) ⟨(i 2).val, (i 2).isLt⟩)

/-- The accumulator of batch row `b` after tiles `0 … n`: zero plus each tile's `k'ᵀ · x`, in order. -/
def accG (x : Vec F S8x4096x1024 .f32) (kproj : Vec F S1024x256 .f32) (b : Fin 8) : ℕ → Vec F S256x1024 .f32
  | 0 => k0_pay3 (tileX x b 0) kproj (k0_pay1 (F := F))
  | n + 1 => k0_pay3 (tileX x b ⟨(n + 1) % 4, Nat.mod_lt _ (by decide)⟩) kproj (accG x kproj b n)

/-- The summary `kv`: the accumulator after the fourth tile, handed out. -/
def kvG (x : Vec F S8x4096x1024 .f32) (kproj : Vec F S1024x256 .f32) : Vec F S8x256x1024 .f32 :=
  fun i => k0_pay5 (accG x kproj ⟨(i 0).val, (i 0).isLt⟩ 3) (ix3 (0 : Fin 1) ⟨(i 1).val, (i 1).isLt⟩ ⟨(i 2).val, (i 2).isLt⟩)

/-- The second call's result from the two arrays it reads. -/
def outG (qp : Vec F S8x4096x256 .bf16) (kv : Vec F S8x256x1024 .f32) : Vec F S8x4096x1024 .f32 :=
  fun i => k1_pay1 (tileQ qp ⟨(i 0).val, (i 0).isLt⟩ (tileOf ⟨(i 1).val, (i 1).isLt⟩)) (rowKV kv ⟨(i 0).val, (i 0).isLt⟩)
    (ix3 (0 : Fin 1) (inTile ⟨(i 1).val, (i 1).isLt⟩) ⟨(i 2).val, (i 2).isLt⟩)

/-- The whole program's result from its three arguments (`x`, `q_proj`, `k_proj` in @main's order). -/
def G (x : Vec F S8x4096x1024 .f32) (qproj kproj : Vec F S1024x256 .f32) : Vec F S8x4096x1024 .f32 :=
  outG (qpG x qproj) (kvG x kproj)

end Cert.KernelIdeal.Spec

end
-- ==== Proof.IdealRegion1Value.lean ====
/-
  The result array after the program's second call, as ONE function of the contents the call finds: whatever the
  feature-map array `qp` and the summary array `kv` hold when the region is entered, the result array ends holding
  `Spec.outG qp kv` — at index (b, l, d) the body's payload of tile `l / 1024` of row `b` of `qp` and of row `b` of
  `kv`, read at (0, l mod 1024, d).

  Two steps.  (i) At any grid point `t` the block the point writes back is block `t` of that one array.  A block's
  coordinate in its array is ALWAYS  block index × block size + the coordinate inside the block.  The output's block
  index at `t` is (b, j, 0) with b < 8 and j < 4; the feature map's is the same (b, j, 0) and the summary's is
  (b, 0, 0) — relations between the printed index maps that are decided once, over the 32 points.  So the two input
  blocks at `t` are tile `j` of row `b` of `qp` and row `b` of `kv`; and an element (0, r, d) of the output block sits
  at (b, 1024 j + r, d) of the result, whose tile is `j` and whose place in the tile is `r` because r < 1024.
  (ii) Every index (b, l, d) of the result lies in the block of the point whose block index is (b, l / 1024, 0); such
  a point exists, and every point writes its block back.  So the blocks written back cover the array.
-/
import proofs.«105023_j38835094290658_2_alg».proof.Proof.IdealRegion1
import proofs.«105023_j38835094290658_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

variable (V : (c : Dev nD) → (b : Ref sig .tc) → Buf (Elt F) ((c : Thread nD τ).loc b))

/-- The zero offsets of a rank-3 rectangle, as the constant function. -/
theorem hz3 : (![0, 0, 0] : Fin 3 → Nat) = fun _ => 0 := funext fun a => by fin_cases a <;> rfl

/-! ## The index maps, over the grid -/

/-- At every grid point: the feature map's block index is the output's, (b, j, 0); the summary's is (b, 0, 0); and
    b < 8, j < 4. -/
theorem idx_facts1 : ∀ t : Fin cfg1.N,
    win1_0.index t (0 : Fin 3) = win1_2.index t (0 : Fin 3)
    ∧ win1_0.index t (1 : Fin 3) = win1_2.index t (1 : Fin 3)
    ∧ win1_0.index t (2 : Fin 3) = 0
    ∧ win1_1.index t (0 : Fin 3) = win1_2.index t (0 : Fin 3)
    ∧ win1_1.index t (1 : Fin 3) = 0
    ∧ win1_1.index t (2 : Fin 3) = 0
    ∧ win1_2.index t (0 : Fin 3) < 8
    ∧ win1_2.index t (1 : Fin 3) < 4
    ∧ win1_2.index t (2 : Fin 3) = 0 :=
  (by decide +kernel : ∀ t : Fin grid1.N, _)

/-- Every block index (b, j, 0) with b < 8, j < 4 is SOME point's. -/
theorem idx_onto1 : ∀ (q0 : Fin 8) (q1 : Fin 4), ∃ t : Fin cfg1.N, win1_2.index t = ![q0.val, q1.val, 0] :=
  (by decide +kernel : ∀ (q0 : Fin 8) (q1 : Fin 4), ∃ t : Fin grid1.N, win1_2.index t = ![q0.val, q1.val, 0])

/-! ## The input blocks at a point -/

/-- The feature map's block at a point whose output block index is (b, j, 0) is tile `j` of row `b`. -/
theorem blockQ (c : Dev nD) (t : Fin cfg1.N) (hb : win1_2.index t (0 : Fin 3) < 8) (hj : win1_2.index t (1 : Fin 3) < 4) :
    iblk1 V c 0 t = Spec.tileQ (V c main_v0_1) ⟨win1_2.index t (0 : Fin 3), hb⟩ ⟨win1_2.index t (1 : Fin 3), hj⟩ := by
  obtain ⟨e00, e01, e02, -⟩ := idx_facts1 t
  funext z
  show V c main_v0_1 (((cfg1.win 0).blk t).view.emb z)
    = V c main_v0_1 (ix3 (⟨win1_2.index t (0 : Fin 3), hb⟩ : Fin 8) (Spec.seqPos ⟨win1_2.index t (1 : Fin 3), hj⟩ ⟨(z 1).val, (z 1).isLt⟩) (⟨(z 2).val, (z 2).isLt⟩ : Fin 256))
  congr 1
  funext a; apply Fin.ext
  match a with
  | ⟨0, _⟩ =>
    show win1_0.index t (0 : Fin 3) * 1 + 1 * (z 0).val = win1_2.index t (0 : Fin 3)
    have hz : (z 0).val < 1 := (z 0).isLt
    omega
  | ⟨1, _⟩ =>
    show win1_0.index t (1 : Fin 3) * 1024 + 1 * (z 1).val = win1_2.index t (1 : Fin 3) * 1024 + (z 1).val
    omega
  | ⟨2, _⟩ =>
    show win1_0.index t (2 : Fin 3) * 256 + 1 * (z 2).val = (z 2).val
    omega

/-- The summary's block at a point whose output block index is (b, j, 0) is row `b`. -/
theorem blockKV (c : Dev nD) (t : Fin cfg1.N) (hb : win1_2.index t (0 : Fin 3) < 8) :
    iblk1 V c 1 t = Spec.rowKV (V c main_v0_0) ⟨win1_2.index t (0 : Fin 3), hb⟩ := by
  obtain ⟨-, -, -, e10, e11, e12, -⟩ := idx_facts1 t
  funext z
  show V c main_v0_0 (((cfg1.win 1).blk t).view.emb z)
    = V c main_v0_0 (ix3 (⟨win1_2.index t (0 : Fin 3), hb⟩ : Fin 8) (⟨(z 1).val, (z 1).isLt⟩ : Fin 256) (⟨(z 2).val, (z 2).isLt⟩ : Fin 1024))
  congr 1
  funext a; apply Fin.ext
  match a with
  | ⟨0, _⟩ =>
    show win1_1.index t (0 : Fin 3) * 1 + 1 * (z 0).val = win1_2.index t (0 : Fin 3)
    have hz : (z 0).val < 1 := (z 0).isLt
    omega
  | ⟨1, _⟩ =>
    show win1_1.index t (1 : Fin 3) * 256 + 1 * (z 1).val = (z 1).val
    omega
  | ⟨2, _⟩ =>
    show win1_1.index t (2 : Fin 3) * 1024 + 1 * (z 2).val = (z 2).val
    omega

/-! ## The result at an element of a block -/

/-- `Spec.outG` at the index (b, 1024 j + r, d) is the payload of tile `j` of row `b` and of row `b`, at (0, r, d):
    the tile of position 1024 j + r is `j` and its place in the tile is `r`, as r < 1024. -/
theorem outG_at (qp : Vec F S8x4096x256 .bf16) (kv : Vec F S8x256x1024 .f32) (b : Fin 8) (j : Fin 4)
    (y : S1x1024x1024.Idx) (i : S8x4096x1024.Idx)
    (h0 : (i 0).val = b.val) (h1 : (i 1).val = j.val * 1024 + (y 1).val) (h2 : (i 2).val = (y 2).val) :
    Spec.outG qp kv i = k1_pay1 (Spec.tileQ qp b j) (Spec.rowKV kv b) y := by
  have hy0 : (y 0).val < 1 := (y 0).isLt
  have hy1 : (y 1).val < 1024 := (y 1).isLt
  have e0 : (⟨(i 0).val, (i 0).isLt⟩ : Fin 8) = b := Fin.ext h0
  have e1 : Spec.tileOf ⟨(i 1).val, (i 1).isLt⟩ = j := Fin.ext (by show (i 1).val / 1024 = j.val; omega)
  have e2 : (ix3 (0 : Fin 1) (Spec.inTile ⟨(i 1).val, (i 1).isLt⟩) (⟨(i 2).val, (i 2).isLt⟩ : Fin 1024) : S1x1024x1024.Idx) = y := by
    funext a
    match a with
    | ⟨0, _⟩ => exact Fin.ext (by show 0 = (y 0).val; omega)
    | ⟨1, _⟩ => exact Fin.ext (by show (i 1).val % 1024 = (y 1).val; omega)
    | ⟨2, _⟩ => exact Fin.ext h2
  unfold Spec.outG
  rw [e0, e1, e2]

/-! ## What a point writes back -/

/-- What point `t` writes back is block `t` of `Spec.outG` of the two arrays as the region finds them. -/
theorem flushed1_2_eq (c : Dev nD) (t : Fin cfg1.N) :
    (dat1 V c).flushed 2 t = ((cfg1.win 2).blk t).view.read (Elt F) (Spec.outG (V c main_v0_1) (V c main_v0_0)) := by
  show (cfg1.win 2).cut (grid1.coords t) ((dat1 V c).after 2 t) = _
  rw [after1_2]
  unfold out1_2
  rw [View.canon_unit_zero hz3]
  simp only [View.ld_unit_zero (S := S1x1024x256) hz3, View.ld_unit_zero (S := S1x256x1024) hz3]
  obtain ⟨-, -, -, -, -, -, hb, hj, e22⟩ := idx_facts1 t
  rw [blockQ V c t hb hj, blockKV V c t hb]
  funext y
  show k1_pay1 _ _ y = Spec.outG (V c main_v0_1) (V c main_v0_0) (((cfg1.win 2).blk t).view.emb y)
  refine (outG_at (V c main_v0_1) (V c main_v0_0) ⟨_, hb⟩ ⟨_, hj⟩ y _ ?_ ?_ ?_).symm
  · show win1_2.index t (0 : Fin 3) * 1 + 1 * (y 0).val = win1_2.index t (0 : Fin 3)
    have hy0 : (y 0).val < 1 := (y 0).isLt
    omega
  · show win1_2.index t (1 : Fin 3) * 1024 + 1 * (y 1).val = win1_2.index t (1 : Fin 3) * 1024 + (y 1).val
    omega
  · show win1_2.index t (2 : Fin 3) * 1024 + 1 * (y 2).val = (y 2).val
    omega

/-! ## The blocks cover the array -/

/-- An index of the result is in point `t`'s block iff each coordinate is in the block's range on its axis. -/
theorem mem_blk1_2 (t : Fin cfg1.N) (i : S8x4096x1024.Idx) :
    i ∈ ((cfg1.win 2).blk t).view.set ↔ ∀ a : Fin 3, win1_2.index t a * S1x1024x1024.size a ≤ (i a).val ∧ (i a).val < win1_2.index t a * S1x1024x1024.size a + S1x1024x1024.size a := by
  show i ∈ ((View.whole main_v1).slice (win1_2.rect t)).set ↔ _
  rw [View.set_slice_whole, Rect.mem_set_unit]
  exact Iff.rfl

/-- Every index (b, l, d) of the result is in the block of a point that writes back: the one at (b, l / 1024, 0). -/
theorem cover1_2_arr (i : S8x4096x1024.Idx) :
    ∃ t : Fin cfg1.N, (cfg1.win 2).flush t = true ∧ i ∈ ((cfg1.win 2).blk t).view.set := by
  have hi0 : (i 0).val < 8 := (i 0).isLt
  have hi1 : (i 1).val < 4096 := (i 1).isLt
  have hi2 : (i 2).val < 1024 := (i 2).isLt
  obtain ⟨t, ht⟩ := idx_onto1 ⟨(i 0).val, hi0⟩ ⟨(i 1).val / 1024, by omega⟩
  have q0 : win1_2.index t (0 : Fin 3) = (i 0).val := congrFun ht 0
  have q1 : win1_2.index t (1 : Fin 3) = (i 1).val / 1024 := congrFun ht 1
  have q2 : win1_2.index t (2 : Fin 3) = 0 := congrFun ht 2
  refine ⟨t, flush1_2 t, ?_⟩
  rw [mem_blk1_2]
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 1024 ≤ (i 1).val ∧ (i 1).val < win1_2.index t (1 : Fin 3) * 1024 + 1024
    omega
  | ⟨2, _⟩ =>
    show win1_2.index t (2 : Fin 3) * 1024 ≤ (i 2).val ∧ (i 2).val < win1_2.index t (2 : Fin 3) * 1024 + 1024
    omega

/-! ## The array after the region -/

/-- The result array after the region's last point is `Spec.outG` of the feature-map array and the summary array as
    the region finds them. -/
theorem final1 (c : Dev nD) : (dat1 V c).arrAt 2 cfg1.N = Cert.KernelIdeal.Spec.outG (V c main_v0_1) (V c main_v0_0) :=
  (dat1 V c).arrAt_eq_of_cover 2 _ (fun t _ => flushed1_2_eq V c t) (cover1_2_arr)

end Cert.KernelIdeal.Hand

end
-- ==== Proof.IdealRegion0Pieces.lean ====
/-
  What the body of the first call leaves, read as values of its payload terms.  At every grid point the body stores
  ONE covering piece into the second result's block — the feature map of the tile, `k0_pay4` of the input block and
  the query projection — and one covering piece into the accumulator — `k0_pay3` of the input block, the key
  projection and the accumulator's contents before the store.  At the first tile of a batch row the accumulator is
  first overwritten with the zero block `k0_pay1`, and the load that follows reads that zero block back; at the last
  tile the accumulator just stored is loaded again and handed to the first result's block through `k0_pay5`.

  Each lemma reads the covering store of a list of pieces: a store through the whole-shape rectangle at zero offsets
  leaves its payload whatever was stored before, and a load through that rectangle of a buffer holding `x` reads `x`.
-/
import proofs.«105023_j38835094290658_2_alg».proof.Proof.IdealRegion0
import proofs.«105023_j38835094290658_2_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 and of a rank-3 rectangle, as the constant function. -/
theorem hzero2 : (![0, 0] : Fin 2 → Nat) = fun _ => 0 := funext fun a => by fin_cases a <;> rfl
theorem hzero3 : (![0, 0, 0] : Fin 3 → Nat) = fun _ => 0 := funext fun a => by fin_cases a <;> rfl

/-! ## The middle tiles of a batch row -/

/-- The second result's block: the feature map of the tile under the query projection. -/
theorem out0_B_4_eq (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i) (x0 : Vec F S1x1024x1024 .f32) (x1 : Vec F S1024x256 .f32) (x2 : Vec F S1024x256 .f32) (xs0 : Vec F S256x1024 .f32) :
    out0_B_4 c i arg2 harg2 arg3 harg3 arg4 harg4 arg5 harg5 arg6 harg6 arg7 harg7 hc0 hc1 x0 x1 x2 xs0 = k0_pay4 x0 x2 := by
  unfold out0_B_4
  rw [View.read_writes_eq_canon _ _ _ (cover0_B_4 c i arg2 harg2 arg3 harg3 arg4 harg4 arg5 harg5 arg6 harg6 arg7 harg7 hc0 hc1 x0 x1 x2 xs0)]
  unfold kernelRun0_B
  dsimp only
  rw [View.canon_unit_zero hzero3]
  simp only [View.readAt_eq_ld, harg2.read_unread, harg4.read_unread, View.ld_unit_zero (S := S1x1024x1024) hzero3, View.ld_unit_zero (S := S1024x256) hzero2]

/-- The accumulator: what it held, plus the tile's share. -/
theorem sout0_B_0_eq (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : ¬cond0_1 i) (x0 : Vec F S1x1024x1024 .f32) (x1 : Vec F S1024x256 .f32) (x2 : Vec F S1024x256 .f32) (xs0 : Vec F S256x1024 .f32) :
    sout0_B_0 c i arg2 harg2 arg3 harg3 arg4 harg4 arg5 harg5 arg6 harg6 arg7 harg7 hc0 hc1 x0 x1 x2 xs0 = k0_pay3 x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  rw [View.canon_unit_zero hzero2]
  simp only [View.readAt_eq_ld, harg2.read_unread, harg3.read_unread, harg7.read_unread, View.ld_unit_zero (S := S1x1024x1024) hzero3, View.ld_unit_zero (S := S1024x256) hzero2, View.ld_unit_zero (S := S256x1024) hzero2]

/-! ## The last tile of a batch row -/

theorem out0_C_4_eq (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i) (x0 : Vec F S1x1024x1024 .f32) (x1 : Vec F S1024x256 .f32) (x2 : Vec F S1024x256 .f32) (xs0 : Vec F S256x1024 .f32) :
    out0_C_4 c i arg2 harg2 arg3 harg3 arg4 harg4 arg5 harg5 arg6 harg6 arg7 harg7 hc0 hc1 x0 x1 x2 xs0 = k0_pay4 x0 x2 := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  rw [View.canon_unit_zero hzero3]
  simp only [View.readAt_eq_ld, harg2.read_unread, harg4.read_unread, View.ld_unit_zero (S := S1x1024x1024) hzero3, View.ld_unit_zero (S := S1024x256) hzero2]

theorem sout0_C_0_eq (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i) (x0 : Vec F S1x1024x1024 .f32) (x1 : Vec F S1024x256 .f32) (x2 : Vec F S1024x256 .f32) (xs0 : Vec F S256x1024 .f32) :
    sout0_C_0 c i arg2 harg2 arg3 harg3 arg4 harg4 arg5 harg5 arg6 harg6 arg7 harg7 hc0 hc1 x0 x1 x2 xs0 = k0_pay3 x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  rw [View.canon_unit_zero hzero2]
  simp only [View.readAt_eq_ld, harg2.read_unread, harg3.read_unread, harg7.read_unread, View.ld_unit_zero (S := S1x1024x1024) hzero3, View.ld_unit_zero (S := S1024x256) hzero2, View.ld_unit_zero (S := S256x1024) hzero2]

/-- The first result's block: the accumulator just stored, read back and handed out. -/
theorem out0_C_3_eq (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : ¬cond0_0 i) (hc1 : cond0_1 i) (x0 : Vec F S1x1024x1024 .f32) (x1 : Vec F S1024x256 .f32) (x2 : Vec F S1024x256 .f32) (xs0 : Vec F S256x1024 .f32) :
    out0_C_3 c i arg2 harg2 arg3 harg3 arg4 harg4 arg5 harg5 arg6 harg6 arg7 harg7 hc0 hc1 x0 x1 x2 xs0 = k0_pay5 (k0_pay3 x0 x1 xs0) := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hzero3, View.readCov_unit_zero (S := S256x1024) _ hzero2]
  simp only [View.readAt_eq_ld, harg2.read_unread, harg3.read_unread, harg7.read_unread, View.ld_unit_zero (S := S1x1024x1024) hzero3, View.ld_unit_zero (S := S1024x256) hzero2, View.ld_unit_zero (S := S256x1024) hzero2]

/-! ## The first tile of a batch row -/

theorem out0_A_4_eq (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i) (x0 : Vec F S1x1024x1024 .f32) (x1 : Vec F S1024x256 .f32) (x2 : Vec F S1024x256 .f32) :
    out0_A_4 c i arg2 harg2 arg3 harg3 arg4 harg4 arg5 harg5 arg6 harg6 arg7 harg7 hc0 hc1 x0 x1 x2 = k0_pay4 x0 x2 := by
  unfold out0_A_4
  rw [View.read_writes_eq_canon _ _ _ (cover0_A_4 c i arg2 harg2 arg3 harg3 arg4 harg4 arg5 harg5 arg6 harg6 arg7 harg7 hc0 hc1 x0 x1 x2)]
  unfold kernelRun0_A
  dsimp only
  rw [View.canon_unit_zero hzero3]
  simp only [View.readAt_eq_ld, harg2.read_unread, harg4.read_unread, View.ld_unit_zero (S := S1x1024x1024) hzero3, View.ld_unit_zero (S := S1024x256) hzero2]

/-- The accumulator: the zero block just stored, read back, plus the tile's share. -/
theorem sout0_A_0_eq (c : Dev nD) (i : grid0.Coords) (arg2 : Memref sig .tc .vmem S1x1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1x1024x256 .bf16) (harg6 : arg6.IsWhole) (arg7 : Memref sig .tc .vmem S256x1024 .f32) (harg7 : arg7.IsWhole) (hc0 : cond0_0 i) (hc1 : ¬cond0_1 i) (x0 : Vec F S1x1024x1024 .f32) (x1 : Vec F S1024x256 .f32) (x2 : Vec F S1024x256 .f32) :
    sout0_A_0 c i arg2 harg2 arg3 harg3 arg4 harg4 arg5 harg5 arg6 harg6 arg7 harg7 hc0 hc1 x0 x1 x2 = k0_pay3 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S256x1024) hzero2, View.readCov_unit_zero (S := S256x1024) _ hzero2]
  simp only [View.readAt_eq_ld, harg2.read_unread, harg3.read_unread, View.ld_unit_zero (S := S1x1024x1024) hzero3, View.ld_unit_zero (S := S1024x256) hzero2]

end Cert.KernelIdeal.Hand

end
-- ==== Proof.IdealRegion0Value.lean ====
/-
  The two result arrays after the program's first call, each as ONE function of the contents the call finds: the
  second result ends holding `Spec.qpG x q_proj` — at (b, l, e) the feature-map payload of tile l / 1024 of row b —
  and the first `Spec.kvG x k_proj` — at (b, e, d) the accumulator of row b after its four tiles, handed out.

  Grid point t is tile t % 4 of batch row t / 4.  (i) The input's block at t is that tile of that row, and the two
  projections' blocks are the whole arrays: a block's coordinate in its array is block index × block size + the
  coordinate inside the block, and the index maps are decided once over the 32 points.  (ii) The accumulator after
  point t is the running sum of row t / 4 over tiles 0 … t % 4, by induction on the point: the first tile of a row
  restarts from the zero block, every other tile adds to what the point before — same row, one tile earlier — left.
  (iii) Every point writes its block of the second result back, and the blocks tile the array; the first result is
  written back at the last tile of each row only, where the accumulator is the row's whole sum, and those eight blocks
  tile that array.
-/
import proofs.«105023_j38835094290658_2_alg».proof.Proof.IdealRegion0
import proofs.«105023_j38835094290658_2_alg».proof.Proof.Spec
import proofs.«105023_j38835094290658_2_alg».proof.Proof.IdealRegion0Pieces
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The index maps, over the grid -/

/-- At grid point `t` the batch row is `t / 4` and the tile `t % 4`: the input's and the second result's block index
    is (t / 4, t % 4, 0), the first result's (t / 4, 0, 0), and the two projections' (0, 0). -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

theorem lt_N0 (t : Fin cfg0.N) : t.val < 32 := lt_of_lt_of_eq t.isLt (show cfg0.N = 32 from N_0)

/-- The batch row and the tile of a grid point. -/
def rowOf (t : Fin cfg0.N) : Fin 8 := ⟨t.val / 4, by have := lt_N0 t; omega⟩
def tileAt (t : Fin cfg0.N) : Fin 4 := ⟨t.val % 4, Nat.mod_lt _ (by decide)⟩

/-! ## The input blocks at a point -/

/-- The input's block at point `t` is tile `t % 4` of batch row `t / 4`: a block's coordinate in its array is the
    block index times the block size plus the coordinate inside the block. -/
theorem blk0_x (c : Dev nD) (t : Fin cfg0.N) :
    iblk0 V c 0 t = Spec.tileX (V c main_arg0) (rowOf t) (tileAt t) := by
  obtain ⟨e0, e1, e2, -⟩ := idx_facts0 t
  funext z
  show V c main_arg0 (((cfg0.win 0).blk t).view.emb z)
    = V c main_arg0 (ix3 (rowOf t) (Spec.seqPos (tileAt t) ⟨(z 1).val, (z 1).isLt⟩) (⟨(z 2).val, (z 2).isLt⟩ : Fin 1024))
  congr 1
  funext a; apply Fin.ext
  match a with
  | ⟨0, _⟩ =>
    show win0_0.index t (0 : Fin 3) * 1 + 1 * (z 0).val = t.val / 4
    have hz : (z 0).val < 1 := (z 0).isLt
    omega
  | ⟨1, _⟩ =>
    show win0_0.index t (1 : Fin 3) * 1024 + 1 * (z 1).val = t.val % 4 * 1024 + (z 1).val
    omega
  | ⟨2, _⟩ =>
    show win0_0.index t (2 : Fin 3) * 1024 + 1 * (z 2).val = (z 2).val
    omega

/-- The key projection's block at any point is the whole array; -/
theorem blk0_wk (c : Dev nD) (t : Fin cfg0.N) : iblk0 V c 1 t = V c main_arg2 := by
  obtain ⟨-, -, -, e0, e1, -⟩ := idx_facts0 t
  funext z
  show V c main_arg2 (((cfg0.win 1).blk t).view.emb z) = V c main_arg2 z
  congr 1
  funext a; apply Fin.ext
  match a with
  | ⟨0, _⟩ =>
    show win0_1.index t (0 : Fin 2) * 1024 + 1 * (z 0).val = (z 0).val
    omega
  | ⟨1, _⟩ =>
    show win0_1.index t (1 : Fin 2) * 256 + 1 * (z 1).val = (z 1).val
    omega

/-- and so is the query projection's. -/
theorem blk0_wq (c : Dev nD) (t : Fin cfg0.N) : iblk0 V c 2 t = V c main_arg1 := by
  obtain ⟨-, -, -, -, -, e0, e1, -⟩ := idx_facts0 t
  funext z
  show V c main_arg1 (((cfg0.win 2).blk t).view.emb z) = V c main_arg1 z
  congr 1
  funext a; apply Fin.ext
  match a with
  | ⟨0, _⟩ =>
    show win0_2.index t (0 : Fin 2) * 1024 + 1 * (z 0).val = (z 0).val
    omega
  | ⟨1, _⟩ =>
    show win0_2.index t (1 : Fin 2) * 256 + 1 * (z 1).val = (z 1).val
    omega

/-! ## The two whole-array functions at an element of a block -/

/-- `Spec.qpG` at the index (b, 1024 j + r, e) is the feature-map payload of tile `j` of row `b` at (0, r, e): the tile
    of position 1024 j + r is `j` and its place in the tile is `r`, as r < 1024. -/
theorem qpG_at (x : Vec F S8x4096x1024 .f32) (wq : Vec F S1024x256 .f32) (b : Fin 8) (j : Fin 4)
    (y : S1x1024x256.Idx) (i : S8x4096x256.Idx)
    (h0 : (i 0).val = b.val) (h1 : (i 1).val = j.val * 1024 + (y 1).val) (h2 : (i 2).val = (y 2).val) :
    Spec.qpG x wq i = k0_pay4 (Spec.tileX x b j) wq y := by
  have hy0 : (y 0).val < 1 := (y 0).isLt
  have hy1 : (y 1).val < 1024 := (y 1).isLt
  have e0 : (⟨(i 0).val, (i 0).isLt⟩ : Fin 8) = b := Fin.ext h0
  have e1 : Spec.tileOf ⟨(i 1).val, (i 1).isLt⟩ = j := Fin.ext (by show (i 1).val / 1024 = j.val; omega)
  have e2 : (ix3 (0 : Fin 1) (Spec.inTile ⟨(i 1).val, (i 1).isLt⟩) (⟨(i 2).val, (i 2).isLt⟩ : Fin 256) : S1x1024x256.Idx) = y := by
    funext a
    match a with
    | ⟨0, _⟩ => exact Fin.ext (by show 0 = (y 0).val; omega)
    | ⟨1, _⟩ => exact Fin.ext (by show (i 1).val % 1024 = (y 1).val; omega)
    | ⟨2, _⟩ => exact Fin.ext h2
  unfold Spec.qpG
  rw [e0, e1, e2]

/-- `Spec.kvG` at the index (b, e, d) is the accumulator of row `b` after its fourth tile, handed out, at (0, e, d). -/
theorem kvG_at (x : Vec F S8x4096x1024 .f32) (wk : Vec F S1024x256 .f32) (b : Fin 8)
    (y : S1x256x1024.Idx) (i : S8x256x1024.Idx)
    (h0 : (i 0).val = b.val) (h1 : (i 1).val = (y 1).val) (h2 : (i 2).val = (y 2).val) :
    Spec.kvG x wk i = k0_pay5 (Spec.accG x wk b 3) y := by
  have hy0 : (y 0).val < 1 := (y 0).isLt
  have e0 : (⟨(i 0).val, (i 0).isLt⟩ : Fin 8) = b := Fin.ext h0
  have e2 : (ix3 (0 : Fin 1) (⟨(i 1).val, (i 1).isLt⟩ : Fin 256) (⟨(i 2).val, (i 2).isLt⟩ : Fin 1024) : S1x256x1024.Idx) = y := by
    funext a
    match a with
    | ⟨0, _⟩ => exact Fin.ext (by show 0 = (y 0).val; omega)
    | ⟨1, _⟩ => exact Fin.ext h1
    | ⟨2, _⟩ => exact Fin.ext h2
  unfold Spec.kvG
  rw [e0, e2]

/-! ## What the body leaves at a point, over the input blocks -/

/-- The components of a triple known by an equation. -/
theorem fst_of_eq {α β γ : Type} {p : α × β × γ} {a : α} {b : β} {g : γ} (h : p = (a, b, g)) : p.1 = a := by subst h; rfl
theorem snd_fst_of_eq {α β γ : Type} {p : α × β × γ} {a : α} {b : β} {g : γ} (h : p = (a, b, g)) : p.2.1 = b := by subst h; rfl
theorem snd_snd_of_eq {α β γ : Type} {p : α × β × γ} {a : α} {b : β} {g : γ} (h : p = (a, b, g)) : p.2.2 = g := by subst h; rfl

/-- The second result's block after point `t`: the feature map of the point's input block under the query projection's
    block, in each of the three cases. -/
theorem qblk0 (c : Dev nD) (t : Fin cfg0.N) :
    (outsAt0 V c t.val t.isLt).2.1 = k0_pay4 (iblk0 V c 0 t) (iblk0 V c 2 t) := by
  by_cases h0 : t.val % 4 = 0
  · have h1 : ¬t.val % 4 = 3 := by omega
    exact (snd_fst_of_eq (outsAt0_A V c t h0 h1)).trans
      (out0_A_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t))
  · by_cases h1 : t.val % 4 = 3
    · exact (snd_fst_of_eq (outsAt0_C V c t h0 h1)).trans
        (out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2)
    · exact (snd_fst_of_eq (outsAt0_B V c t h0 h1)).trans
        (out0_B_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2)

/-- The accumulator after the first tile of a batch row: the zero block plus the tile's share. -/
theorem acc0_first (c : Dev nD) (t : Fin cfg0.N) (h0 : t.val % 4 = 0) :
    (outsAt0 V c t.val t.isLt).2.2 = k0_pay3 (iblk0 V c 0 t) (iblk0 V c 1 t) (k0_pay1 (F := F)) := by
  have h1 : ¬t.val % 4 = 3 := by omega
  exact (snd_snd_of_eq (outsAt0_A V c t h0 h1)).trans
    (sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t))

/-- The accumulator after any other tile: what the point before left plus the tile's share. -/
theorem acc0_next (c : Dev nD) (t : Fin cfg0.N) (h0 : ¬t.val % 4 = 0) :
    (outsAt0 V c t.val t.isLt).2.2 = k0_pay3 (iblk0 V c 0 t) (iblk0 V c 1 t) (outsAt0 V c (t.val - 1) (Nat.lt_of_le_of_lt (Nat.sub_le _ _) t.isLt)).2.2 := by
  by_cases h1 : t.val % 4 = 3
  · exact (snd_snd_of_eq (outsAt0_C V c t h0 h1)).trans
      (sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2)
  · exact (snd_snd_of_eq (outsAt0_B V c t h0 h1)).trans
      (sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2)

/-- The first result's block after the last tile of a batch row: the accumulator the point leaves, handed out. -/
theorem kvblk0 (c : Dev nD) (t : Fin cfg0.N) (h1 : t.val % 4 = 3) :
    (outsAt0 V c t.val t.isLt).1 = k0_pay5 (outsAt0 V c t.val t.isLt).2.2 := by
  have h0 : ¬t.val % 4 = 0 := by omega
  exact ((fst_of_eq (outsAt0_C V c t h0 h1)).trans
    (out0_C_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2)).trans
    (congrArg (k0_pay5 (F := F)) (acc0_next V c t h0).symm)
/-! ## The accumulator is the running sum of the batch row's tiles -/

/-- `Spec.accG` at its first step and at a later one, the tile named by any index of the right value. -/
theorem accG_first (x : Vec F S8x4096x1024 .f32) (wk : Vec F S1024x256 .f32) (b b' : Fin 8) (j : Fin 4) (hb : b' = b) (hj : j.val = 0) :
    k0_pay3 (Spec.tileX x b' j) wk (k0_pay1 (F := F)) = Spec.accG x wk b 0 := by
  subst hb
  obtain rfl : j = 0 := Fin.ext hj
  rfl

theorem accG_next (x : Vec F S8x4096x1024 .f32) (wk : Vec F S1024x256 .f32) (b b' : Fin 8) (m : ℕ) (j : Fin 4) (hb : b' = b)
    (hj : j.val = (m + 1) % 4) :
    k0_pay3 (Spec.tileX x b' j) wk (Spec.accG x wk b m) = Spec.accG x wk b (m + 1) := by
  subst hb
  obtain rfl : j = ⟨(m + 1) % 4, Nat.mod_lt _ (by decide)⟩ := Fin.ext hj
  rfl

/-- After point `n` the accumulator holds the running sum of batch row `n / 4` over its tiles `0 … n % 4`: by induction
    on the point — the first tile of a row restarts from zero, every other tile adds to what the point before left, and
    the point before lies in the same row, one tile earlier. -/
theorem acc0_eq (c : Dev nD) : ∀ (n : ℕ) (hn : n < cfg0.N) (b : Fin 8) (k : ℕ), b.val = n / 4 → k = n % 4 →
    (outsAt0 V c n hn).2.2 = Spec.accG (V c main_arg0) (V c main_arg2) b k := by
  intro n
  induction n with
  | zero =>
    intro hn b k hb hk
    obtain rfl : k = 0 := hk
    refine (acc0_first V c ⟨0, hn⟩ rfl).trans ?_
    rw [blk0_x V c ⟨0, hn⟩, blk0_wk V c ⟨0, hn⟩]
    exact accG_first (V c main_arg0) (V c main_arg2) b (rowOf ⟨0, hn⟩) (tileAt ⟨0, hn⟩) (Fin.ext hb.symm) rfl
  | succ n ih =>
    intro hn b k hb hk
    by_cases h0 : (n + 1) % 4 = 0
    · obtain rfl : k = 0 := hk.trans h0
      refine (acc0_first V c ⟨n + 1, hn⟩ h0).trans ?_
      rw [blk0_x V c ⟨n + 1, hn⟩, blk0_wk V c ⟨n + 1, hn⟩]
      exact accG_first (V c main_arg0) (V c main_arg2) b (rowOf ⟨n + 1, hn⟩) (tileAt ⟨n + 1, hn⟩) (Fin.ext hb.symm) h0
    · obtain rfl : k = n % 4 + 1 := by omega
      refine (acc0_next V c ⟨n + 1, hn⟩ h0).trans ?_
      rw [blk0_x V c ⟨n + 1, hn⟩, blk0_wk V c ⟨n + 1, hn⟩]
      show k0_pay3 _ _ (outsAt0 V c n (Nat.lt_of_succ_lt hn)).2.2 = _
      rw [ih (Nat.lt_of_succ_lt hn) b (n % 4) (by omega) rfl]
      exact accG_next (V c main_arg0) (V c main_arg2) b (rowOf ⟨n + 1, hn⟩) (n % 4) (tileAt ⟨n + 1, hn⟩) (Fin.ext hb.symm)
        (by show (n + 1) % 4 = (n % 4 + 1) % 4; omega)

/-! ## What a point writes back -/

/-- What point `t` writes back of the second result is block `t` of `Spec.qpG` of the input and the query projection
    as the region finds them: an element (0, r, e) of the block sits at (t / 4, 1024 (t % 4) + r, e) of the array. -/
theorem flushed0_4_eq (c : Dev nD) (t : Fin cfg0.N) :
    (dat0 V c).flushed 4 t = ((cfg0.win 4).blk t).view.read (Elt F) (Spec.qpG (V c main_arg0) (V c main_arg1)) := by
  show (cfg0.win 4).cut (grid0.coords t) ((dat0 V c).after 4 t) = _
  rw [after0_4, qblk0 V c t, blk0_x V c t, blk0_wq V c t]
  obtain ⟨-, -, -, -, -, -, -, -, -, -, e0, e1, e2⟩ := idx_facts0 t
  funext y
  show k0_pay4 _ _ y = Spec.qpG (V c main_arg0) (V c main_arg1) (((cfg0.win 4).blk t).view.emb y)
  refine (qpG_at (V c main_arg0) (V c main_arg1) (rowOf t) (tileAt t) y _ ?_ ?_ ?_).symm
  · show win0_4.index t (0 : Fin 3) * 1 + 1 * (y 0).val = t.val / 4
    have hy0 : (y 0).val < 1 := (y 0).isLt
    omega
  · show win0_4.index t (1 : Fin 3) * 1024 + 1 * (y 1).val = t.val % 4 * 1024 + (y 1).val
    omega
  · show win0_4.index t (2 : Fin 3) * 256 + 1 * (y 2).val = (y 2).val
    omega

/-- What a point that writes the first result back — the last tile of its batch row — writes is its block of
    `Spec.kvG`: there the accumulator holds the row's running sum over all four tiles. -/
theorem flushed0_3_eq (c : Dev nD) (t : Fin cfg0.N) (hf : (cfg0.win 3).flush t = true) :
    (dat0 V c).flushed 3 t = ((cfg0.win 3).blk t).view.read (Elt F) (Spec.kvG (V c main_arg0) (V c main_arg2)) := by
  have h3 : t.val % 4 = 3 := (flush0_3 t).mp hf
  show (cfg0.win 3).cut (grid0.coords t) ((dat0 V c).after 3 t) = _
  rw [after0_3, kvblk0 V c t h3, acc0_eq V c t.val t.isLt (rowOf t) 3 rfl h3.symm]
  obtain ⟨-, -, -, -, -, -, -, e0, e1, e2, -⟩ := idx_facts0 t
  funext y
  show k0_pay5 _ y = Spec.kvG (V c main_arg0) (V c main_arg2) (((cfg0.win 3).blk t).view.emb y)
  refine (kvG_at (V c main_arg0) (V c main_arg2) (rowOf t) y _ ?_ ?_ ?_).symm
  · show win0_3.index t (0 : Fin 3) * 1 + 1 * (y 0).val = t.val / 4
    have hy0 : (y 0).val < 1 := (y 0).isLt
    omega
  · show win0_3.index t (1 : Fin 3) * 256 + 1 * (y 1).val = (y 1).val
    omega
  · show win0_3.index t (2 : Fin 3) * 1024 + 1 * (y 2).val = (y 2).val
    omega

/-! ## The blocks cover the arrays -/

/-- An index of a result is in point `t`'s block iff each coordinate is in the block's range on its axis. -/
theorem mem_blk0_4 (t : Fin cfg0.N) (i : S8x4096x256.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v0_1).slice (win0_4.rect t)).set ↔ _
  rw [View.set_slice_whole, Rect.mem_set_unit]
  exact Iff.rfl

theorem mem_blk0_3 (t : Fin cfg0.N) (i : S8x256x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v0_0).slice (win0_3.rect t)).set ↔ _
  rw [View.set_slice_whole, Rect.mem_set_unit]
  exact Iff.rfl

/-- Every index (b, l, e) of the second result is in the block of point 4 b + l / 1024, and every point writes it back. -/
theorem cover0_4_arr (i : S8x4096x256.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 256 := (i 2).isLt
  have hN : cfg0.N = 32 := N_0
  let t : Fin cfg0.N := ⟨4 * (i 0).val + (i 1).val / 1024, by rw [hN]; omega⟩
  have tv : t.val = 4 * (i 0).val + (i 1).val / 1024 := rfl
  obtain ⟨-, -, -, -, -, -, -, -, -, -, e0, e1, e2⟩ := idx_facts0 t
  refine ⟨t, flush0_4 t, ?_⟩
  rw [mem_blk0_4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 256 ≤ (i 2).val ∧ (i 2).val < win0_4.index t (2 : Fin 3) * 256 + 256
    omega

/-- Every index (b, e, d) of the first result is in the block of point 4 b + 3, the last tile of row `b`, which writes
    the block back. -/
theorem cover0_3_arr (i : S8x256x1024.Idx) :
    ∃ t : Fin cfg0.N, (cfg0.win 3).flush t = true ∧ i ∈ ((cfg0.win 3).blk t).view.set := by
  have hi0 : (i 0).val < 8 := (i 0).isLt
  have hi1 : (i 1).val < 256 := (i 1).isLt
  have hi2 : (i 2).val < 1024 := (i 2).isLt
  have hN : cfg0.N = 32 := N_0
  let t : Fin cfg0.N := ⟨4 * (i 0).val + 3, by rw [hN]; omega⟩
  have tv : t.val = 4 * (i 0).val + 3 := rfl
  obtain ⟨-, -, -, -, -, -, -, e0, e1, e2, -⟩ := idx_facts0 t
  refine ⟨t, (flush0_3 t).mpr (by omega), ?_⟩
  rw [mem_blk0_3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 1024 ≤ (i 2).val ∧ (i 2).val < win0_3.index t (2 : Fin 3) * 1024 + 1024
    omega

/-! ## The two arrays after the region -/

/-- The second result after the region's last point is `Spec.qpG` of the input and the query projection as the region
    finds them. -/
theorem final0_4 (c : Dev nD) : (dat0 V c).arrAt 4 cfg0.N = Cert.KernelIdeal.Spec.qpG (V c main_arg0) (V c main_arg1) :=
  (dat0 V c).arrAt_eq_of_cover 4 _ (fun t _ => flushed0_4_eq V c t) (cover0_4_arr)

/-- The first result after the region's last point is `Spec.kvG` of the input and the key projection as the region
    finds them. -/
theorem final0_3 (c : Dev nD) : (dat0 V c).arrAt 3 cfg0.N = Cert.KernelIdeal.Spec.kvG (V c main_arg0) (V c main_arg2) :=
  (dat0 V c).arrAt_eq_of_cover 3 _ (fun t hf => flushed0_3_eq V c t hf) (cover0_3_arr)

end Cert.KernelIdeal.Hand

end
-- ==== Proof.IdealValue.lean ====
/-
  The result array after both pallas_calls, as one function of the three argument arrays: the second call's write-backs
  leave `outG` of the two arrays the first call wrote, which are `qpG` and `kvG` of the arguments.
-/
import proofs.«105023_j38835094290658_2_alg».proof.Proof.IdealRun
import proofs.«105023_j38835094290658_2_alg».proof.Proof.IdealRegion1Value
import proofs.«105023_j38835094290658_2_alg».proof.Proof.IdealRegion0Value
import proofs.«105023_j38835094290658_2_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the second call's write-backs leave in the result array is the program's function `Spec.G` of the launch
    contents of the three arguments. -/
theorem value_eq (c : Dev nD) :
    (dat1 (V2 m ρ) c).arrAt 2 cfg1.N
      = Cert.KernelIdeal.Spec.G (m ((c.tc : Thread nD τ).loc main_arg0)) (m ((c.tc : Thread nD τ).loc main_arg1)) (m ((c.tc : Thread nD τ).loc main_arg2)) := by
  rw [final1 (V2 m ρ) c]
  have e1 : V2 m ρ c main_v0_1 = Cert.KernelIdeal.Spec.qpG (m ((c.tc : Thread nD τ).loc main_arg0)) (m ((c.tc : Thread nD τ).loc main_arg1)) :=
    (W2_arr m ρ c 4).trans (final0_4 (V0 m ρ) c)
  have e0 : V2 m ρ c main_v0_0 = Cert.KernelIdeal.Spec.kvG (m ((c.tc : Thread nD τ).loc main_arg0)) (m ((c.tc : Thread nD τ).loc main_arg2)) :=
    (W2_arr m ρ c 3).trans (final0_3 (V0 m ρ) c)
  rw [e1, e0]
  rfl

end Cert.KernelIdeal.Hand

end
-- ==== Proof.KernelFormulaDots.lean ====
/-
  The three matrix products of the two kernel bodies, at the ideal values, read at an index: each is the sum, over its one
  contraction coordinate, of the operands' products (the accumulator is the zero splat).
-/
import proofs.«105023_j38835094290658_2_alg».proof.Proof.Gen.KernelIdeal.Skeleton
import Idealize.ShloMosaic.PureOps.Ideal.Laws
import Idealize.ShloMosaic.Lib.ValueIdx

noncomputable section

namespace Cert.KernelIdeal.KernelFormula

open Idealize.ShloMosaic Idealize.ShloMosaic.ValueIdx Cert.KernelIdeal Cert.KernelIdeal.Gen

/-! ## [1024,1024] · [1024,256]: rows times columns, contraction over the left operand's columns -/

theorem dotXW_lhs0 (j : S1024x256.Idx) (q : dot_S1024x1024_S1024x256_S1024x256_1_0_0_1_n_n.contr.Idx) :
    (dot_S1024x1024_S1024x256_S1024x256_1_0_0_1_n_n.lhsIdx j q 0).val = (j 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem dotXW_rhs1 (j : S1024x256.Idx) (q : dot_S1024x1024_S1024x256_S1024x256_1_0_0_1_n_n.contr.Idx) :
    (dot_S1024x1024_S1024x256_S1024x256_1_0_0_1_n_n.rhsIdx j q 1).val = (j 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- `(x · w)(r, e) = Σₖ x(r, k) · w(k, e)`. -/
theorem dotXW_apply (lhs : FVec Ideal S1024x1024 .bf16) (rhs : FVec Ideal S1024x256 .bf16) (r : Fin 1024) (e : Fin 256) :
    matmul (F := Ideal) dot_S1024x1024_S1024x256_S1024x256_1_0_0_1_n_n none lhs rhs (constant (F := Ideal) S1024x256 .f32 0x00000000#32) (ix2 r e)
      = ∑ k : Fin 1024, lhs (ix2 r k) * rhs (ix2 k e) := by
  refine (Ideal.matmul_constant_zero_apply dot_S1024x1024_S1024x256_S1024x256_1_0_0_1_n_n none lhs rhs (ix2 r e)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r e) ((contrEquiv1 dot_S1024x1024_S1024x256_S1024x256_1_0_0_1_n_n 1024 rfl rfl).symm k) = ix2 r k := funext fun a => Fin.ext (by
    match a with
    | ⟨0, _⟩ => exact dotXW_lhs0 _ _
    | ⟨1, _⟩ => exact (dot_S1024x1024_S1024x256_S1024x256_1_0_0_1_n_n.lhsIdx_val_of_single rfl _ _).trans hk)
  have er : dot_S1024x1024_S1024x256_S1024x256_1_0_0_1_n_n.rhsIdx (ix2 r e) ((contrEquiv1 dot_S1024x1024_S1024x256_S1024x256_1_0_0_1_n_n 1024 rfl rfl).symm k) = ix2 k e := funext fun a => Fin.ext (by
    match a with
    | ⟨0, _⟩ => exact (dot_S1024x1024_S1024x256_S1024x256_1_0_0_1_n_n.rhsIdx_val_of_single rfl _ _).trans hk
    | ⟨1, _⟩ => exact dotXW_rhs1 _ _)
  rw [el, er]

/-! ## [1024,256]ᵀ · [1024,1024]: contraction over the ROWS of both operands -/

theorem dotKX_lhs1 (j : S256x1024.Idx) (q : dot_S1024x256_S1024x1024_S256x1024_0_0_1_1_n_n.contr.Idx) :
    (dot_S1024x256_S1024x1024_S256x1024_0_0_1_1_n_n.lhsIdx j q 1).val = (j 0).val := by
  unfold DotDims.lhsIdx
  rw [dif_neg (show ¬(1 : Fin S1024x256.rank) ∈ dot_S1024x256_S1024x1024_S256x1024_0_0_1_1_n_n.lhsBatch by decide), dif_pos (show (1 : Fin S1024x256.rank) ∈ dot_S1024x256_S1024x1024_S256x1024_0_0_1_1_n_n.lhsNonContracting by decide)]
  rfl
theorem dotKX_rhs1 (j : S256x1024.Idx) (q : dot_S1024x256_S1024x1024_S256x1024_0_0_1_1_n_n.contr.Idx) :
    (dot_S1024x256_S1024x1024_S256x1024_0_0_1_1_n_n.rhsIdx j q 1).val = (j 1).val := by
  unfold DotDims.rhsIdx
  rw [dif_neg (show ¬(1 : Fin S1024x1024.rank) ∈ dot_S1024x256_S1024x1024_S256x1024_0_0_1_1_n_n.rhsBatch by decide), dif_pos (show (1 : Fin S1024x1024.rank) ∈ dot_S1024x256_S1024x1024_S256x1024_0_0_1_1_n_n.rhsNonContracting by decide)]
  rfl

/-- `(k'ᵀ · x)(e, d) = Σᵣ k'(r, e) · x(r, d)`. -/
theorem dotKX_apply (lhs : FVec Ideal S1024x256 .bf16) (rhs : FVec Ideal S1024x1024 .bf16) (e : Fin 256) (d : Fin 1024) :
    matmul (F := Ideal) dot_S1024x256_S1024x1024_S256x1024_0_0_1_1_n_n none lhs rhs (constant (F := Ideal) S256x1024 .f32 0x00000000#32) (ix2 e d)
      = ∑ r : Fin 1024, lhs (ix2 r e) * rhs (ix2 r d) := by
  refine (Ideal.matmul_constant_zero_apply dot_S1024x256_S1024x1024_S256x1024_0_0_1_1_n_n none lhs rhs (ix2 e d)).trans ?_
  rw [← Equiv.sum_comp (contrEquiv1 dot_S1024x256_S1024x1024_S256x1024_0_0_1_1_n_n 1024 rfl rfl).symm]
  refine Finset.sum_congr rfl fun k _ => ?_
  have hk := contrEquiv1_symm_val dot_S1024x256_S1024x1024_S256x1024_0_0_1_1_n_n 1024 rfl rfl k
  have el : dot_S1024x256_S1024x1024_S256x1024_0_0_1_1_n_n.lhsIdx (ix2 e d) ((contrEquiv1 dot_S1024x256_S1024x1024_S256x1024_0_0_1_1_n_n 1024 rfl rfl).symm k) = ix2 k e := funext fun a => Fin.ext (by
    match a with
    | ⟨0, _⟩ => exact (dot_S1024x256_S1024x1024_S256x1024_0_0_1_1_n_n.lhsIdx_val_of_single rfl _ _).trans hk
    | ⟨1, _⟩ => exact dotKX_lhs1 _ _)
  have er : dot_S1024x256_S1024x1024_S256x1024_0_0_1_1_n_n.rhsIdx (ix2 e d) ((contrEquiv1 dot_S1024x256_S1024x1024_S256x1024_0_0_1_1_n_n 1024 rfl rfl).symm k) = ix2 k d := funext fun a => Fin.ext (by
    match a with
    | ⟨0, _⟩ => exact (dot_S1024x256_S1024x1024_S256x1024_0_0_1_1_n_n.rhsIdx_val_of_single rfl _ _).trans hk
    | ⟨1, _⟩ => exact dotKX_rhs1 _ _)
  rw [el, er]

/-! ## [1024,256] · [256,1024]: rows times columns -/

theorem dotQK_lhs0 (j : S1024x1024.Idx) (q : dot_S1024x256_S256x1024_S1024x1024_1_0_0_1_n_n.contr.Idx) :
    (dot_S1024x256_S256x1024_S1024x1024_1_0_0_1_n_n.lhsIdx j q 0).val = (j 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem dotQK_rhs1 (j : S1024x1024.Idx) (q : dot_S1024x256_S256x1024_S1024x1024_1_0_0_1_n_n.contr.Idx) :
    (dot_S1024x256_S256x1024_S1024x1024_1_0_0_1_n_n.rhsIdx j q 1).val = (j 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- `(q' · kv)(r, d) = Σₑ q'(r, e) · kv(e, d)`. -/
theorem dotQK_apply (lhs : FVec Ideal S1024x256 .bf16) (rhs : FVec Ideal S256x1024 .bf16) (r : Fin 1024) (d : Fin 1024) :
    matmul (F := Ideal) dot_S1024x256_S256x1024_S1024x1024_1_0_0_1_n_n none lhs rhs (constant (F := Ideal) S1024x1024 .f32 0x00000000#32) (ix2 r d)
      = ∑ e : Fin 256, lhs (ix2 r e) * rhs (ix2 e d) := by
  refine (Ideal.matmul_constant_zero_apply dot_S1024x256_S256x1024_S1024x1024_1_0_0_1_n_n none lhs rhs (ix2 r d)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r d) ((contrEquiv1 dot_S1024x256_S256x1024_S1024x1024_1_0_0_1_n_n 256 rfl rfl).symm k) = ix2 r k := funext fun a => Fin.ext (by
    match a with
    | ⟨0, _⟩ => exact dotQK_lhs0 _ _
    | ⟨1, _⟩ => exact (dot_S1024x256_S256x1024_S1024x1024_1_0_0_1_n_n.lhsIdx_val_of_single rfl _ _).trans hk)
  have er : dot_S1024x256_S256x1024_S1024x1024_1_0_0_1_n_n.rhsIdx (ix2 r d) ((contrEquiv1 dot_S1024x256_S256x1024_S1024x1024_1_0_0_1_n_n 256 rfl rfl).symm k) = ix2 k d := funext fun a => Fin.ext (by
    match a with
    | ⟨0, _⟩ => exact (dot_S1024x256_S256x1024_S1024x1024_1_0_0_1_n_n.rhsIdx_val_of_single rfl _ _).trans hk
    | ⟨1, _⟩ => exact dotQK_rhs1 _ _)
  rw [el, er]

end Cert.KernelIdeal.KernelFormula

end
-- ==== Proof.KernelFormulaPay.lean ====
/-
  The payload terms of the two kernel bodies, at the ideal values, read at an index given by coordinates: the format
  changes are the identity on extended reals, a shape cast that drops or adds a unit axis keeps the other coordinates, and
  each matrix product is the sum over its contraction coordinate.
-/
import proofs.«105023_j38835094290658_2_alg».proof.Proof.KernelFormulaDots
import Idealize.ShloMosaic.Lib.Pipeline.Value
import Idealize.ShloMosaic.Lib.ValueLayout

noncomputable section

namespace Cert.KernelIdeal.KernelFormula

open Idealize.ShloMosaic Idealize.ShloMosaic.ValueIdx Cert.KernelIdeal Cert.KernelIdeal.Gen

/-! ## Two layout operations of a kept-dimension row sum, read at an index -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column at `i`. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The sum over the 256 lanes of a row of a [1024, 256] vector. -/
theorem laneSum_apply (src : FVec Ideal S1024x256 .f32) (hφ : FKind.Formats .f32)
    (hacc : (0x00000000#32 : BitVec 32) = FKind.add.neutral .f32 hφ) (r : Fin 1024) :
    multiReduction (F := Ideal) .add [1] S1024 src 0x00000000#32 reduces_S1024x256_S1024 hφ hacc (ix1 r)
      = ∑ e : Fin 256, src (ix2 r e) := by
  refine (Ideal.multiReduction_add_single src 0x00000000#32 reduces_S1024x256_S1024 hφ hacc (ix1 r)).trans ?_
  refine Finset.sum_congr rfl fun e _ => ?_
  exact congrArg src (funext fun a => Fin.ext (by match a with | ⟨0, _⟩ => rfl | ⟨1, _⟩ => rfl))

/-! ## The first body's payloads -/

/-- The loaded tile in bf16, as a matrix: the tile itself. -/
theorem k0_pay2_apply (v3 : Vec Ideal S1x1024x1024 .f32) (r k : Fin 1024) :
    k0_pay2 (F := Ideal) v3 (ix2 r k) = v3 (ix3 (0 : Fin 1) r k) := by
  unfold k0_pay2
  exact shapeCast_1ab_ab_apply v3 shapeCasts_S1x1024x1024_S1024x1024 r k

/-- The accumulator's initial value is zero. -/
theorem k0_pay1_apply (j : S256x1024.Idx) : k0_pay1 (F := Ideal) j = 0 := by
  unfold k0_pay1
  refine (congrFun (shapeCast_self _ shapeCasts_S256x1024_S256x1024) j).trans ?_
  exact Ideal.ofBits_zero_f32

/-- The feature map of a tile: `exp (Σₖ x(r, k) · w(k, e))`. -/
theorem k0_pay4_apply (v3 : Vec Ideal S1x1024x1024 .f32) (v17 : Vec Ideal S1024x256 .f32) (r : Fin 1024) (e : Fin 256) :
    k0_pay4 (F := Ideal) v3 v17 (ix3 (0 : Fin 1) r e)
      = Ideal.exp (∑ k : Fin 1024, v3 (ix3 (0 : Fin 1) r k) * v17 (ix2 k e)) := by
  unfold k0_pay4
  refine (shapeCast_ab_1ab_apply _ shapeCasts_S1024x256_S1x1024x256 (0 : Fin 1) r e).trans ?_
  refine congrArg Ideal.exp ?_
  refine (dotXW_apply _ _ r e).trans ?_
  exact Finset.sum_congr rfl fun k _ => congrArg₂ (· * ·) (k0_pay2_apply v3 r k) rfl

/-- One accumulation step: the accumulator plus `Σᵣ k'(r, e) · x(r, d)` of the tile. -/
theorem k0_pay3_apply (v3 : Vec Ideal S1x1024x1024 .f32) (v6 : Vec Ideal S1024x256 .f32) (v12 : Vec Ideal S256x1024 .f32)
    (e : Fin 256) (d : Fin 1024) :
    k0_pay3 (F := Ideal) v3 v6 v12 (ix2 e d)
      = v12 (ix2 e d) + ∑ r : Fin 1024, Ideal.exp (∑ k : Fin 1024, v3 (ix3 (0 : Fin 1) r k) * v6 (ix2 k e)) * v3 (ix3 (0 : Fin 1) r d) := by
  unfold k0_pay3
  refine (congrFun (shapeCast_self _ shapeCasts_S256x1024_S256x1024) (ix2 e d)).trans ?_
  refine congrArg (v12 (ix2 e d) + ·) ?_
  refine (dotKX_apply _ _ e d).trans ?_
  refine Finset.sum_congr rfl fun r _ => ?_
  refine congrArg₂ (· * ·) ?_ (k0_pay2_apply v3 r d)
  refine congrArg Ideal.exp ?_
  refine (dotXW_apply _ _ r e).trans ?_
  exact Finset.sum_congr rfl fun k _ => congrArg₂ (· * ·) (k0_pay2_apply v3 r k) rfl

/-- The summary handed out: the accumulator with a unit axis in front. -/
theorem k0_pay5_apply (v28 : Vec Ideal S256x1024 .f32) (e : Fin 256) (d : Fin 1024) :
    k0_pay5 (F := Ideal) v28 (ix3 (0 : Fin 1) e d) = v28 (ix2 e d) := by
  unfold k0_pay5
  exact shapeCast_ab_1ab_apply v28 shapeCasts_S256x1024_S1x256x1024 (0 : Fin 1) e d

/-! ## The second body's payload -/

/-- `(Σₑ q'(r, e) · kv(e, d)) · (1 / (Σₑ q'(r, e) + ε))`, the two literals kept as their words. -/
theorem k1_pay1_apply (v0 : Vec Ideal S1x1024x256 .bf16) (v2 : Vec Ideal S1x256x1024 .f32) (r : Fin 1024) (d : Fin 1024) :
    k1_pay1 (F := Ideal) v0 v2 (ix3 (0 : Fin 1) r d)
      = (∑ e : Fin 256, v0 (ix3 (0 : Fin 1) r e) * v2 (ix3 (0 : Fin 1) e d))
        * Ideal.div (Ideal.ofBits .f32 0x3F800000#32) ((∑ e : Fin 256, v0 (ix3 (0 : Fin 1) r e)) + Ideal.ofBits .f32 0x322BCC77#32) := by
  unfold k1_pay1
  refine (shapeCast_ab_1ab_apply _ shapeCasts_S1024x1024_S1x1024x1024 (0 : Fin 1) r d).trans ?_
  refine congrArg₂ (· * ·) ?_ ?_
  · refine (dotQK_apply _ _ r d).trans ?_
    exact Finset.sum_congr rfl fun e _ => congrArg₂ (· * ·)
      (shapeCast_1ab_ab_apply v0 shapeCasts_S1x1024x256_S1024x256 r e) (shapeCast_1ab_ab_apply v2 shapeCasts_S1x256x1024_S256x1024 e d)
  · refine (broadcastTo_a1_ab_apply _ broadcasts_S1024x1_S1024x1024 r d).trans ?_
    refine congrArg (fun z => Ideal.div (Ideal.ofBits .f32 0x3F800000#32) (z + Ideal.ofBits .f32 0x322BCC77#32)) ?_
    refine (shapeCast_a_a1_apply _ shapeCasts_S1024_S1024x1 r (0 : Fin 1)).trans ?_
    refine (laneSum_apply _ _ _ r).trans ?_
    exact Finset.sum_congr rfl fun e _ => shapeCast_1ab_ab_apply v0 shapeCasts_S1x1024x256_S1024x256 r e

end Cert.KernelIdeal.KernelFormula

end
-- ==== Proof.Formula.lean ====
/-
  The program's result written with sums on the extended reals, in two spellings of the summary `kv`: summed tile by
  tile from zero in the tiles' order (what the first pallas_call accumulates), and summed over the whole sequence at
  once (what an einsum computes).  `feat x w` is the feature map `exp (x · w)`; the result at `(b, l, d)` is
  `(Σₑ q'(b,l,e) · kv(b,e,d)) · (1 / (Σₑ q'(b,l,e) + ε))`, the two literals kept as their words.
-/
import proofs.«105023_j38835094290658_2_alg».proof.Proof.Spec
import Idealize.ShloMosaic.PureOps.Ideal

noncomputable section

namespace Cert.KernelIdeal.Formula

open Idealize.ShloMosaic Idealize.ShloMosaic.ValueIdx Cert.KernelIdeal Cert.KernelIdeal.Spec

/-- `exp (Σₖ x(b,l,k) · w(k,e))`. -/
def feat (x : Vec Ideal S8x4096x1024 .f32) (w : Vec Ideal S1024x256 .f32) (b : Fin 8) (l : Fin 4096) (e : Fin 256) : EReal :=
  Ideal.exp (∑ k : Fin 1024, x (ix3 b l k) * w (ix2 k e))

/-- One tile's share of the summary: `Σᵣ k'(b, 1024 j + r, e) · x(b, 1024 j + r, d)`. -/
def kvTile (x : Vec Ideal S8x4096x1024 .f32) (w : Vec Ideal S1024x256 .f32) (b : Fin 8) (j : Fin 4) (e : Fin 256) (d : Fin 1024) : EReal :=
  ∑ r : Fin 1024, feat x w b (seqPos j r) e * x (ix3 b (seqPos j r) d)

/-- The summary as the first pallas_call accumulates it: zero, then the four tiles added in order. -/
def kvTiles (x : Vec Ideal S8x4096x1024 .f32) (w : Vec Ideal S1024x256 .f32) (b : Fin 8) (e : Fin 256) (d : Fin 1024) : EReal :=
  (((0 + kvTile x w b 0 e d) + kvTile x w b 1 e d) + kvTile x w b 2 e d) + kvTile x w b 3 e d

/-- The summary as one sum over the sequence. -/
def kvAll (x : Vec Ideal S8x4096x1024 .f32) (w : Vec Ideal S1024x256 .f32) (b : Fin 8) (e : Fin 256) (d : Fin 1024) : EReal :=
  ∑ l : Fin 4096, feat x w b l e * x (ix3 b l d)

/-- The result at `(b, l, d)` from a summary `kv`. -/
def result (kv : Fin 8 → Fin 256 → Fin 1024 → EReal) (x : Vec Ideal S8x4096x1024 .f32) (wq : Vec Ideal S1024x256 .f32)
    (b : Fin 8) (l : Fin 4096) (d : Fin 1024) : EReal :=
  (∑ e : Fin 256, feat x wq b l e * kv b e d)
    * Ideal.div (Ideal.ofBits .f32 0x3F800000#32) ((∑ e : Fin 256, feat x wq b l e) + Ideal.ofBits .f32 0x322BCC77#32)

end Cert.KernelIdeal.Formula

end
-- ==== Proof.KernelFormula.lean ====
/-
  The two pallas_calls' result at the ideal values, index by index: the first call's feature map `q'` and its summary `kv`
  (zero plus the four tiles' shares, added in the tiles' order), and from them the second call's
  `(Σₑ q'(b,l,e) · kv(b,e,d)) · (1 / (Σₑ q'(b,l,e) + ε))`.  A sequence position `l` is position `l % 1024` of tile `l / 1024`,
  so a tile read at that place is the whole array read at `l`.
-/
import proofs.«105023_j38835094290658_2_alg».proof.Proof.KernelFormulaPay
import proofs.«105023_j38835094290658_2_alg».proof.Proof.Formula

noncomputable section

namespace Cert.KernelIdeal.KernelFormula

open Idealize.ShloMosaic Idealize.ShloMosaic.ValueIdx Cert.KernelIdeal Cert.KernelIdeal.Gen Cert.KernelIdeal.Spec Cert.KernelIdeal.Formula

/-- A sequence position is its place inside its tile: `(l / 1024) · 1024 + l % 1024 = l`. -/
theorem seqPos_tileOf_inTile (l : Fin 4096) : seqPos (tileOf l) (inTile l) = l :=
  Fin.ext (Nat.div_add_mod' l.val 1024)

/-- Tile `j` of batch row `b` of the input, read at `(0, r, k)`: the input at `(b, 1024 j + r, k)`. -/
theorem tileX_apply (x : Vec Ideal S8x4096x1024 .f32) (b : Fin 8) (j : Fin 4) (r k : Fin 1024) :
    tileX x b j (ix3 (0 : Fin 1) r k) = x (ix3 b (seqPos j r) k) := rfl

/-- The first call's second result is the feature map `q' = exp (x · q_proj)`. -/
theorem qpG_apply (x : Vec Ideal S8x4096x1024 .f32) (wq : Vec Ideal S1024x256 .f32) (b : Fin 8) (l : Fin 4096) (e : Fin 256) :
    qpG (F := Ideal) x wq (ix3 b l e) = feat x wq b l e := by
  show k0_pay4 (F := Ideal) (tileX x b (tileOf l)) wq (ix3 (0 : Fin 1) (inTile l) e) = _
  refine (k0_pay4_apply _ _ _ _).trans ?_
  unfold feat
  refine congrArg Ideal.exp (Finset.sum_congr rfl fun k _ => congrArg₂ (· * ·) ?_ rfl)
  show x (ix3 b (seqPos (tileOf l) (inTile l)) k) = x (ix3 b l k)
  rw [seqPos_tileOf_inTile]

/-- One accumulation step on tile `j` adds that tile's share of the summary. -/
theorem step_apply (x : Vec Ideal S8x4096x1024 .f32) (wk : Vec Ideal S1024x256 .f32) (b : Fin 8) (j : Fin 4)
    (acc : Vec Ideal S256x1024 .f32) (e : Fin 256) (d : Fin 1024) :
    k0_pay3 (F := Ideal) (tileX x b j) wk acc (ix2 e d) = acc (ix2 e d) + kvTile x wk b j e d :=
  k0_pay3_apply (tileX x b j) wk acc e d

/-- The accumulator after the fourth tile: zero plus the four tiles' shares, in order. -/
theorem accG_three_apply (x : Vec Ideal S8x4096x1024 .f32) (wk : Vec Ideal S1024x256 .f32) (b : Fin 8) (e : Fin 256) (d : Fin 1024) :
    accG (F := Ideal) x wk b 3 (ix2 e d) = kvTiles x wk b e d := by
  have h3 : accG (F := Ideal) x wk b 3 = k0_pay3 (tileX x b 3) wk (accG x wk b 2) := rfl
  have h2 : accG (F := Ideal) x wk b 2 = k0_pay3 (tileX x b 2) wk (accG x wk b 1) := rfl
  have h1 : accG (F := Ideal) x wk b 1 = k0_pay3 (tileX x b 1) wk (accG x wk b 0) := rfl
  have h0 : accG (F := Ideal) x wk b 0 = k0_pay3 (tileX x b 0) wk (k0_pay1 (F := Ideal)) := rfl
  rw [h3, step_apply, h2, step_apply, h1, step_apply, h0, step_apply, k0_pay1_apply]
  rfl

/-- The first call's first result is the summary, tile by tile. -/
theorem kvG_apply (x : Vec Ideal S8x4096x1024 .f32) (wk : Vec Ideal S1024x256 .f32) (b : Fin 8) (e : Fin 256) (d : Fin 1024) :
    kvG (F := Ideal) x wk (ix3 b e d) = kvTiles x wk b e d := by
  show k0_pay5 (F := Ideal) (accG x wk b 3) (ix3 (0 : Fin 1) e d) = _
  rw [k0_pay5_apply, accG_three_apply]

/-- The whole program's result at `(b, l, d)`. -/
theorem G_apply (x : Vec Ideal S8x4096x1024 .f32) (wq wk : Vec Ideal S1024x256 .f32) (b : Fin 8) (l : Fin 4096) (d : Fin 1024) :
    Spec.G (F := Ideal) x wq wk (ix3 b l d) = Formula.result (Formula.kvTiles x wk) x wq b l d := by
  show k1_pay1 (F := Ideal) (tileQ (qpG x wq) b (tileOf l)) (rowKV (kvG x wk) b) (ix3 (0 : Fin 1) (inTile l) d) = _
  refine (k1_pay1_apply _ _ _ _).trans ?_
  unfold Formula.result
  have hq : ∀ e : Fin 256, tileQ (qpG (F := Ideal) x wq) b (tileOf l) (ix3 (0 : Fin 1) (inTile l) e) = feat x wq b l e := fun e => by
    show qpG (F := Ideal) x wq (ix3 b (seqPos (tileOf l) (inTile l)) e) = _
    rw [seqPos_tileOf_inTile, qpG_apply]
  have hkv : ∀ e : Fin 256, rowKV (kvG (F := Ideal) x wk) b (ix3 (0 : Fin 1) e d) = kvTiles x wk b e d := fun e =>
    kvG_apply x wk b e d
  exact congrArg₂ (· * ·) (Finset.sum_congr rfl fun e _ => congrArg₂ (· * ·) (hq e) (hkv e))
    (congrArg (fun z => Ideal.div (Ideal.ofBits .f32 0x3F800000#32) (z + Ideal.ofBits .f32 0x322BCC77#32)) (Finset.sum_congr rfl fun e _ => hq e))

end Cert.KernelIdeal.KernelFormula

end
-- ==== Proof.RefFormula.lean ====
/-
  The reference program read at an index, at the extended reals: element `(b, l, d)` of its result is
  `(Σₑ q'(b,l,e) · kv(b,e,d)) · (1 / (Σₑ q'(b,l,e) + ε))` with `q' = exp (x · q_proj)`, `k' = exp (x · k_proj)` and
  `kv(b,e,d) = Σₗ k'(b,l,e) · x(b,l,d)` summed over the whole sequence at once.
-/
import proofs.«105023_j38835094290658_2_alg».proof.Proof.Gen.ReferenceIdeal.Read
import proofs.«105023_j38835094290658_2_alg».proof.Proof.Formula

noncomputable section

namespace Cert.ReferenceIdeal.RefValue

open Idealize.ShloMosaic Idealize.ShloMosaic.ValueIdx Cert.ReferenceIdeal Cert.ReferenceIdeal.Read

/-! The composed index functions of the generated stages, at an index given by its coordinates. -/

theorem lidx0_of_v5 (b : Fin 8) (l : Fin 4096) (d : Fin 1024) (e : Fin 256) (k : Fin 1024) :
    lidx_main_v0 (lidx_main_v5 (ix3 b l d) e) k = ix3 b l k :=
  funext fun a => Fin.ext (by match a with | ⟨0, _⟩ => rfl | ⟨1, _⟩ => rfl | ⟨2, _⟩ => rfl)

theorem ridx0_of_v5 (b : Fin 8) (l : Fin 4096) (d : Fin 1024) (e : Fin 256) (k : Fin 1024) :
    ridx_main_v0 (lidx_main_v5 (ix3 b l d) e) k = ix2 k e :=
  funext fun a => Fin.ext (by match a with | ⟨0, _⟩ => rfl | ⟨1, _⟩ => rfl)

theorem lidx2_of_v4 (b : Fin 8) (l : Fin 4096) (d : Fin 1024) (e : Fin 256) (l' : Fin 4096) (k : Fin 1024) :
    lidx_main_v2 (lidx_main_v4 (ridx_main_v5 (ix3 b l d) e) l') k = ix3 b l' k :=
  funext fun a => Fin.ext (by match a with | ⟨0, _⟩ => rfl | ⟨1, _⟩ => rfl | ⟨2, _⟩ => rfl)

theorem ridx2_of_v4 (b : Fin 8) (l : Fin 4096) (d : Fin 1024) (e : Fin 256) (l' : Fin 4096) (k : Fin 1024) :
    ridx_main_v2 (lidx_main_v4 (ridx_main_v5 (ix3 b l d) e) l') k = ix2 k e :=
  funext fun a => Fin.ext (by match a with | ⟨0, _⟩ => rfl | ⟨1, _⟩ => rfl)

theorem ridx4_of_v5 (b : Fin 8) (l : Fin 4096) (d : Fin 1024) (e : Fin 256) (l' : Fin 4096) :
    ridx_main_v4 (ridx_main_v5 (ix3 b l d) e) l' = ix3 b l' d :=
  funext fun a => Fin.ext (by match a with | ⟨0, _⟩ => rfl | ⟨1, _⟩ => rfl | ⟨2, _⟩ => rfl)

theorem lidx0_of_v6 (b : Fin 8) (l : Fin 4096) (d : Fin 1024) (e : Fin 256) (k : Fin 1024) :
    lidx_main_v0 (idx_main_v6 (idx_main_v7 (idx_main_v12 (ix3 b l d))) e) k = ix3 b l k :=
  funext fun a => Fin.ext (by match a with | ⟨0, _⟩ => rfl | ⟨1, _⟩ => rfl | ⟨2, _⟩ => rfl)

theorem ridx0_of_v6 (b : Fin 8) (l : Fin 4096) (d : Fin 1024) (e : Fin 256) (k : Fin 1024) :
    ridx_main_v0 (idx_main_v6 (idx_main_v7 (idx_main_v12 (ix3 b l d))) e) k = ix2 k e :=
  funext fun a => Fin.ext (by match a with | ⟨0, _⟩ => rfl | ⟨1, _⟩ => rfl)

/-- The reference's result at `(b, l, d)`. -/
theorem ref_apply (x0 : Vec Ideal Cert.KernelIdeal.S8x4096x1024 .f32) (x1 x2 : Vec Ideal Cert.KernelIdeal.S1024x256 .f32)
    (b : Fin 8) (l : Fin 4096) (d : Fin 1024) :
    Cert.ReferenceIdeal.Read.val_main_v13 (F := Ideal) x0 x1 x2 (ix3 b l d)
      = Cert.KernelIdeal.Formula.result (Cert.KernelIdeal.Formula.kvAll x0 x2) x0 x1 b l d := by
  simp only [val_main_v13_apply, val_main_v5_apply, val_main_v12_apply, val_main_v11_apply, val_main_v10_apply,
    val_main_cst_1_apply, val_main_v9_apply, val_main_v7_apply, val_main_v8_apply, val_main_cst_0_apply,
    val_main_v6_apply, val_main_cst_apply, val_main_v4_apply, val_main_v3_apply, val_main_v2_apply,
    val_main_v1_apply, val_main_v0_apply]
  simp only [lidx0_of_v5, ridx0_of_v5, lidx2_of_v4, ridx2_of_v4, ridx4_of_v5, lidx0_of_v6, ridx0_of_v6,
    Ideal.hostUnary_exp_def, Ideal.hostDivf_def, Ideal.mulf_def, Ideal.addf_def, Ideal.ofBits_def,
    Ideal.ofBits_zero_f32, zero_add]
  rfl

end Cert.ReferenceIdeal.RefValue

end
-- ==== Proof.RefFormulaSum.lean ====
/-
  A sum over the 4096 sequence positions is the sum of its four runs of 1024 consecutive positions, added in order
  starting from zero.  Only the laws of an additive commutative monoid are used.
-/
import proofs.«105023_j38835094290658_2_alg».proof.Proof.Formula

noncomputable section

namespace Cert.ReferenceIdeal.RefValue

open Idealize.ShloMosaic Idealize.ShloMosaic.ValueIdx Cert.KernelIdeal Cert.KernelIdeal.Spec Cert.KernelIdeal.Formula

/-- A sequence position is a tile together with a place inside the tile: `(j, r) ↦ 1024 j + r` is a bijection. -/
def tileEquiv : Fin 4 × Fin 1024 ≃ Fin 4096 where
  toFun p := seqPos p.1 p.2
  invFun l := (tileOf l, inTile l)
  left_inv p := by
    obtain ⟨⟨j, hj⟩, ⟨r, hr⟩⟩ := p
    refine Prod.ext (Fin.ext ?_) (Fin.ext ?_)
    · show (j * 1024 + r) / 1024 = j
      omega
    · show (j * 1024 + r) % 1024 = r
      omega
  right_inv l := by
    obtain ⟨l, hl⟩ := l
    refine Fin.ext ?_
    show l / 1024 * 1024 + l % 1024 = l
    omega

theorem tileEquiv_apply (j : Fin 4) (r : Fin 1024) : tileEquiv (j, r) = seqPos j r := rfl

/-- The sum over the whole sequence, split into the four tiles and added in the tiles' order from zero. -/
theorem sum_tiles {M : Type*} [AddCommMonoid M] (f : Fin 4096 → M) :
    ((((0 + ∑ r : Fin 1024, f (seqPos 0 r)) + ∑ r : Fin 1024, f (seqPos 1 r)) + ∑ r : Fin 1024, f (seqPos 2 r))
        + ∑ r : Fin 1024, f (seqPos 3 r))
      = ∑ l : Fin 4096, f l := by
  rw [← Equiv.sum_comp tileEquiv f, Fintype.sum_prod_type, Fin.sum_univ_four, zero_add]
  rfl

/-- The summary accumulated tile by tile is the summary summed over the sequence at once. -/
theorem kvTiles_eq_kvAll (x : Vec Ideal Cert.KernelIdeal.S8x4096x1024 .f32) (w : Vec Ideal Cert.KernelIdeal.S1024x256 .f32)
    (b : Fin 8) (e : Fin 256) (d : Fin 1024) :
    Cert.KernelIdeal.Formula.kvTiles x w b e d = Cert.KernelIdeal.Formula.kvAll x w b e d :=
  sum_tiles (fun l => feat x w b l e * x (ix3 b l d))

end Cert.ReferenceIdeal.RefValue

end
-- ==== Proof.RefFormulaJoin.lean ====
/-
  The reference's result is the value the two pallas_calls compute: both are the same expression of the summary `kv`,
  the reference with `kv` summed over the whole sequence at once, the kernel with `kv` accumulated tile by tile from
  zero; the two summaries agree because addition on the extended reals is associative and commutative.
-/
import proofs.«105023_j38835094290658_2_alg».proof.Proof.RefFormula
import proofs.«105023_j38835094290658_2_alg».proof.Proof.RefFormulaSum

noncomputable section

namespace Cert.ReferenceIdeal.RefValue

open Idealize.ShloMosaic Idealize.ShloMosaic.ValueIdx

/-- The two spellings of the summary are the same function. -/
theorem kvTiles_eq_kvAll_fun (x : Vec Ideal Cert.KernelIdeal.S8x4096x1024 .f32) (w : Vec Ideal Cert.KernelIdeal.S1024x256 .f32) :
    Cert.KernelIdeal.Formula.kvTiles x w = Cert.KernelIdeal.Formula.kvAll x w :=
  funext fun b => funext fun e => funext fun d => kvTiles_eq_kvAll x w b e d

/-- Given the kernel side's value at every index (with the summary accumulated tile by tile), the reference's result
    and the kernel's are the same array. -/
theorem ref_eq_G (x0 : Vec Ideal Cert.KernelIdeal.S8x4096x1024 .f32) (x1 x2 : Vec Ideal Cert.KernelIdeal.S1024x256 .f32)
    (hG : ∀ (b : Fin 8) (l : Fin 4096) (d : Fin 1024),
      Cert.KernelIdeal.Spec.G (F := Ideal) x0 x1 x2 (ix3 b l d)
        = Cert.KernelIdeal.Formula.result (Cert.KernelIdeal.Formula.kvTiles x0 x2) x0 x1 b l d) :
    Cert.ReferenceIdeal.Read.val_main_v13 (F := Ideal) x0 x1 x2 = Cert.KernelIdeal.Spec.G (F := Ideal) x0 x1 x2 := by
  funext i
  obtain ⟨b, l, d, rfl⟩ : ∃ (b : Fin 8) (l : Fin 4096) (d : Fin 1024), i = ix3 b l d :=
    ⟨i 0, i 1, i 2, ValueIdx.eq_ix3 i⟩
  rw [ref_apply, hG, kvTiles_eq_kvAll_fun]

end Cert.ReferenceIdeal.RefValue

end
-- ==== Proof.lean ====
/-
  Linear attention with exponential feature maps, `out = (q' · (k'ᵀ · x)) · (1 / (Σ q' + ε))` with `q' = exp (x · q_proj)`,
  `k' = exp (x · k_proj)`, over x : f32[8, 4096, 1024] and two projections f32[1024, 256].

  The kernel is two pallas_calls on a grid of 8 batch rows × 4 tiles of 1024 sequence positions. The first keeps a
  [256, 1024] accumulator in scratch: zero at a row's first tile, plus `k'ᵀ · x` of each tile, handed out as the summary
  `kv` after the fourth; it also writes `q'` tile by tile. The second reads a tile of `q'` and the row's summary and
  writes `(q' · kv) · (1 / (Σₑ q' + ε))`. The reference computes the same with four einsums over the whole sequence.

  Read on the extended reals (every change of float format the identity) the two agree entry by entry: the only
  difference is that the kernel's summary is a sum over the sequence taken as zero plus four runs of 1024 terms in
  order, the reference's one sum over 4096 terms — equal by associativity of addition alone, so the precondition is
  never opened. Both literals (1 and ε) are the same words on both sides and are never evaluated; the zero word is.

  Frames: each pallas_call is run as a region of @main from the buffers' contents at its entry; in the first, the
  accumulator's contents after each grid point are carried in the region's invariant. The ideal pass rewrote nothing,
  so `preserves` is trivial.
-/
import proofs.«105023_j38835094290658_2_alg».proof.Defs
import proofs.«105023_j38835094290658_2_alg».proof.Proof.Gen.Kernel
import proofs.«105023_j38835094290658_2_alg».proof.Proof.Gen.KernelIdeal
import proofs.«105023_j38835094290658_2_alg».proof.Proof.Gen.ReferenceIdeal
import proofs.«105023_j38835094290658_2_alg».proof.Proof.Gen.Pre_finite_inputs
import proofs.«105023_j38835094290658_2_alg».proof.Proof.BitsRun
import proofs.«105023_j38835094290658_2_alg».proof.Proof.IdealValue
import proofs.«105023_j38835094290658_2_alg».proof.Proof.KernelFormula
import proofs.«105023_j38835094290658_2_alg».proof.Proof.RefFormulaJoin
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `Spec.G` of the (agreeing) arguments: the kernel by its two regions'
    write-backs, the reference by its run's term read index by index. -/
theorem algebraic : Cert.algebraic_KernelIdeal_ReferenceIdeal := by
  intro m ρ m' ρ' _ hagree
  refine ⟨fun c => Cert.KernelIdeal.Spec.G (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Hand.value_eq m ρ c), (h c).2⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v13_eq]
    exact Cert.ReferenceIdeal.RefValue.ref_eq_G _ _ _ (fun b l d => Cert.KernelIdeal.KernelFormula.G_apply _ _ _ b l d)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
